-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v102)) (v1 : (c : Dev Cert.KernelIdeal.nD) → Buf (Elt Ideal) ((c.tc : Thread Cert.KernelIdeal.nD Cert.KernelIdeal.τ).loc Cert.KernelIdeal.main_v98)) (v2 : (c : Dev Cert.KernelIdeal.nD) → Buf (Elt Ideal) ((c.tc : Thread Cert.KernelIdeal.nD Cert.KernelIdeal.τ).loc Cert.KernelIdeal.main_v101_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_v98) = v1 c
          ∧ r.2.mem ((c.tc : Thread Cert.KernelIdeal.nD Cert.KernelIdeal.τ).loc Cert.KernelIdeal.main_v101_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S1000000 : Shape := ⟨1, ![1000000]⟩
abbrev S200000 : Shape := ⟨1, ![200000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg20 : FVec F S256x128 .f32) (main_arg21 : FVec F S128 .f32) (main_arg22 : FVec F S128x1 .f32) (main_arg23 : FVec F S1 .f32) (main_v63 : IVec S_ 1) (main_v67 : IVec S_ 1) : IVec S_ 1 :=
  let main_v68 : IVec S_ 1 := andi main_v63 main_v67
  let main_v69 : FVec F S256x128 .f32 := Host.absf main_arg20
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg21
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x1 .f32 := Host.absf main_arg22
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg23
  let main_cst_32 : FVec F S_ .f32 := constant S_ .f32 0x7F800000#32
  fn_part5 (F := F) main_v83 main_v84 main_cst_32

def fn_part3 {F : FTy → Type} [FloatOps F] (main_arg17 : FVec F S128x128 .f32) (main_arg18 : FVec F S128 .f32) (main_arg19 : FVec F S128x128 .f32) (main_arg20 : FVec F S256x128 .f32) (main_arg21 : FVec F S128 .f32) (main_arg22 : FVec F S128x1 .f32) (main_arg23 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg17
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg18
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg19
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg20 main_arg21 main_arg22 main_arg23 main_v63 main_v67

def fn_part2 {F : FTy → Type} [FloatOps F] (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S256x128 .f32) (main_arg21 : FVec F S128 .f32) (main_arg22 : FVec F S128x1 .f32) (main_arg23 : FVec F S1 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg16
  let main_cst_18 : FVec F S_ .f32 := constant S_ .f32 0x7F800000#32
  let main_v50 : FVec F S128x128 .f32 := broadcastInDim S128x128 ![] bcast_S_S128x128 main_cst_18
  fn_part3 (F := F) main_arg17 main_arg18 main_arg19 main_arg20 main_arg21 main_arg22 main_arg23 main_v48 main_v49 main_v50

def fn_part1 {F : FTy → Type} [FloatOps F] (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S256x128 .f32) (main_arg21 : FVec F S128 .f32) (main_arg22 : FVec F S128x1 .f32) (main_arg23 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_v33

def fn {F : FTy → Type} [FloatOps F] (main_arg0 : FVec F S100000x128 .f32) (main_arg1 : FVec F S20000x128 .f32) (main_arg2 : IVec S1000000 32) (main_arg3 : IVec S1000000 32) (main_arg4 : IVec S1000000 32) (main_arg5 : IVec S1000000 32) (main_arg6 : IVec S200000 32) (main_arg7 : IVec S200000 32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S256x128 .f32) (main_arg21 : FVec F S128 .f32) (main_arg22 : FVec F S128x1 .f32) (main_arg23 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg10 main_arg11 main_arg12 main_arg13 main_arg14 main_arg15 main_arg16 main_arg17 main_arg18 main_arg19 main_arg20 main_arg21 main_arg22 main_arg23 main_v13 main_v16
-- ==== Kernel.lean ====
abbrev S100000x128 : Shape := ⟨2, ![100000, 128]⟩
abbrev S20000x128 : Shape := ⟨2, ![20000, 128]⟩
abbrev S1000000 : Shape := ⟨1, ![1000000]⟩
abbrev S200000 : Shape := ⟨1, ![200000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩
abbrev S1000000x1 : Shape := ⟨2, ![1000000, 1]⟩
abbrev S1000000x128 : Shape := ⟨2, ![1000000, 128]⟩
abbrev S20000 : Shape := ⟨1, ![20000]⟩
abbrev S20000x1 : Shape := ⟨2, ![20000, 1]⟩
abbrev S1x128 : Shape := ⟨2, ![1, 128]⟩
abbrev S2000x128 : Shape := ⟨2, ![2000, 128]⟩
abbrev S100000 : Shape := ⟨1, ![100000]⟩
abbrev S100000x1 : Shape := ⟨2, ![100000, 1]⟩
abbrev S200000x1 : Shape := ⟨2, ![200000, 1]⟩
abbrev S200000x128 : Shape := ⟨2, ![200000, 128]⟩
abbrev S200000x256 : Shape := ⟨2, ![200000, 256]⟩
abbrev S1x1 : Shape := ⟨2, ![1, 1]⟩
abbrev S2000x256 : Shape := ⟨2, ![2000, 256]⟩
abbrev S2000x1 : Shape := ⟨2, ![2000, 1]⟩

abbrev nBuf : Space → Nat
  | .hbm => 156
  | .vmem => 46
  | .smem => 0
  | _ => 0

abbrev hbmTy0_0 (i : Nat) : BufTy := match i % 128 with
  | 0 => ⟨S100000x128, .f32⟩
  | 1 => ⟨S20000x128, .f32⟩
  | 2 => ⟨S1000000, .i32⟩
  | 3 => ⟨S1000000, .i32⟩
  | 4 => ⟨S1000000, .i32⟩
  | 5 => ⟨S1000000, .i32⟩
  | 6 => ⟨S200000, .i32⟩
  | 7 => ⟨S200000, .i32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S256x128, .f32⟩
  | 21 => ⟨S128, .f32⟩
  | 22 => ⟨S128x1, .f32⟩
  | 23 => ⟨S1, .f32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000x128, .f32⟩
  | 33 => ⟨S_, .f32⟩
  | 34 => ⟨S20000x128, .f32⟩
  | 35 => ⟨S1000000x1, .i32⟩
  | 36 => ⟨S20000x128, .f32⟩
  | 37 => ⟨S_, .f32⟩
  | 38 => ⟨S1000000, .f32⟩
  | 39 => ⟨S_, .f32⟩
  | 40 => ⟨S20000, .f32⟩
  | 41 => ⟨S1000000x1, .i32⟩
  | 42 => ⟨S20000, .f32⟩
  | 43 => ⟨S_, .f32⟩
  | 44 => ⟨S20000, .f32⟩
  | 45 => ⟨S20000, .f32⟩
  | 46 => ⟨S20000x1, .f32⟩
  | 47 => ⟨S20000x128, .f32⟩
  | 48 => ⟨S20000x128, .f32⟩
  | 49 => ⟨S1x128, .f32⟩
  | 50 => ⟨S20000x128, .f32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1000000x128, .f32⟩
  | 60 => ⟨S_, .f32⟩
  | 61 => ⟨S100000x128, .f32⟩
  | 62 => ⟨S1000000x1, .i32⟩
  | 63 => ⟨S100000x128, .f32⟩
  | 64 => ⟨S_, .f32⟩
  | 65 => ⟨S1000000, .f32⟩
  | 66 => ⟨S_, .f32⟩
  | 67 => ⟨S100000, .f32⟩
  | 68 => ⟨S1000000x1, .i32⟩
  | 69 => ⟨S100000, .f32⟩
  | 70 => ⟨S_, .f32⟩
  | 71 => ⟨S100000, .f32⟩
  | 72 => ⟨S100000, .f32⟩
  | 73 => ⟨S100000x1, .f32⟩
  | 74 => ⟨S100000x128, .f32⟩
  | 75 => ⟨S100000x128, .f32⟩
  | 76 => ⟨S1x128, .f32⟩
  | 77 => ⟨S100000x128, .f32⟩
  | 78 => ⟨S_, .i32⟩
  | 79 => ⟨S1000000, .i32⟩
  | 80 => ⟨S1000000, .i1⟩
  | 81 => ⟨S_, .i32⟩
  | 82 => ⟨S1000000, .i32⟩
  | 83 => ⟨S1000000, .i32⟩
  | 84 => ⟨S1000000, .i32⟩
  | 85 => ⟨S1000000x1, .i32⟩
  | 86 => ⟨S1000000x128, .f32⟩
  | 87 => ⟨S_, .f32⟩
  | 88 => ⟨S20000x128, .f32⟩
  | 89 => ⟨S1000000x1, .i32⟩
  | 90 => ⟨S20000x128, .f32⟩
  | 91 => ⟨S_, .f32⟩
  | 92 => ⟨S1000000, .f32⟩
  | 93 => ⟨S_, .f32⟩
  | 94 => ⟨S20000, .f32⟩
  | 95 => ⟨S1000000x1, .i32⟩
  | 96 => ⟨S20000, .f32⟩
  | 97 => ⟨S_, .f32⟩
  | 98 => ⟨S20000, .f32⟩
  | 99 => ⟨S20000, .f32⟩
  | 100 => ⟨S20000x1, .f32⟩
  | 101 => ⟨S20000x128, .f32⟩
  | 102 => ⟨S20000x128, .f32⟩
  | 103 => ⟨S1x128, .f32⟩
  | 104 => ⟨S20000x128, .f32⟩
  | 105 => ⟨S_, .i32⟩
  | 106 => ⟨S1000000, .i32⟩
  | 107 => ⟨S1000000, .i1⟩
  | 108 => ⟨S_, .i32⟩
  | 109 => ⟨S1000000, .i32⟩
  | 110 => ⟨S1000000, .i32⟩
  | 111 => ⟨S1000000, .i32⟩
  | 112 => ⟨S1000000x1, .i32⟩
  | 113 => ⟨S1000000x128, .f32⟩
  | 114 => ⟨S_, .f32⟩
  | 115 => ⟨S100000x128, .f32⟩
  | 116 => ⟨S1000000x1, .i32⟩
  | 117 => ⟨S100000x128, .f32⟩
  | 118 => ⟨S_, .f32⟩
  | 119 => ⟨S1000000, .f32⟩
  | 120 => ⟨S_, .f32⟩
  | 121 => ⟨S100000, .f32⟩
  | 122 => ⟨S1000000x1, .i32⟩
  | 123 => ⟨S100000, .f32⟩
  | 124 => ⟨S_, .f32⟩
  | 125 => ⟨S100000, .f32⟩
  | 126 => ⟨S100000, .f32⟩
  | 127 => ⟨S100000x1, .f32⟩
  | _ => ⟨S100000x128, .f32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S_, .i32⟩
  | 5 => ⟨S200000, .i32⟩
  | 6 => ⟨S200000, .i1⟩
  | 7 => ⟨S_, .i32⟩
  | 8 => ⟨S200000, .i32⟩
  | 9 => ⟨S200000, .i32⟩
  | 10 => ⟨S200000, .i32⟩
  | 11 => ⟨S200000x1, .i32⟩
  | 12 => ⟨S200000x128, .f32⟩
  | 13 => ⟨S_, .i32⟩
  | 14 => ⟨S200000, .i32⟩
  | 15 => ⟨S200000, .i1⟩
  | 16 => ⟨S_, .i32⟩
  | 17 => ⟨S200000, .i32⟩
  | 18 => ⟨S200000, .i32⟩
  | 19 => ⟨S200000, .i32⟩
  | 20 => ⟨S200000x1, .i32⟩
  | 21 => ⟨S200000x128, .f32⟩
  | 22 => ⟨S200000x256, .f32⟩
  | 23 => ⟨S1x128, .f32⟩
  | 24 => ⟨S1x1, .f32⟩
  | 25 => ⟨S200000x128, .f32⟩
  | 26 => ⟨S200000x1, .f32⟩
  | 27 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S2000x128, .f32⟩
  | .local _ .vmem, ⟨35, _⟩ => ⟨S2000x128, .f32⟩
  | .local _ .vmem, ⟨36, _⟩ => ⟨S2000x256, .f32⟩
  | .local _ .vmem, ⟨37, _⟩ => ⟨S2000x256, .f32⟩
  | .local _ .vmem, ⟨38, _⟩ => ⟨S256x128, .f32⟩
  | .local _ .vmem, ⟨39, _⟩ => ⟨S1x128, .f32⟩
  | .local _ .vmem, ⟨40, _⟩ => ⟨S128x1, .f32⟩
  | .local _ .vmem, ⟨41, _⟩ => ⟨S1x1, .f32⟩
  | .local _ .vmem, ⟨42, _⟩ => ⟨S2000x128, .f32⟩
  | .local _ .vmem, ⟨43, _⟩ => ⟨S2000x128, .f32⟩
  | .local _ .vmem, ⟨44, _⟩ => ⟨S2000x1, .f32⟩
  | .local _ .vmem, ⟨45, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_1 : Ref sig .tc := ⟨.hbm, 37, rfl⟩
abbrev main_v10 : Ref sig .tc := ⟨.hbm, 38, rfl⟩
abbrev main_cst_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_3 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_4 : Ref sig .tc := ⟨.hbm, 51, rfl⟩
abbrev main_v21 : Ref sig .tc := ⟨.hbm, 52, rfl⟩
abbrev main_v22 : Ref sig .tc := ⟨.hbm, 53, rfl⟩
abbrev main_c_5 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_6 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_7 : Ref sig .tc := ⟨.hbm, 64, rfl⟩
abbrev main_v31 : Ref sig .tc := ⟨.hbm, 65, rfl⟩
abbrev main_cst_8 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_9 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_c_10 : Ref sig .tc := ⟨.hbm, 78, rfl⟩
abbrev main_v42 : Ref sig .tc := ⟨.hbm, 79, rfl⟩
abbrev main_v43 : Ref sig .tc := ⟨.hbm, 80, rfl⟩
abbrev main_c_11 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_12 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_13 : Ref sig .tc := ⟨.hbm, 91, rfl⟩
abbrev main_v52 : Ref sig .tc := ⟨.hbm, 92, rfl⟩
abbrev main_cst_14 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_15 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_16 : Ref sig .tc := ⟨.hbm, 105, rfl⟩
abbrev main_v63 : Ref sig .tc := ⟨.hbm, 106, rfl⟩
abbrev main_v64 : Ref sig .tc := ⟨.hbm, 107, rfl⟩
abbrev main_c_17 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_18 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_19 : Ref sig .tc := ⟨.hbm, 118, rfl⟩
abbrev main_v73 : Ref sig .tc := ⟨.hbm, 119, rfl⟩
abbrev main_cst_20 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_cst_21 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_c_22 : Ref sig .tc := ⟨.hbm, 132, rfl⟩
abbrev main_v84 : Ref sig .tc := ⟨.hbm, 133, rfl⟩
abbrev main_v85 : Ref sig .tc := ⟨.hbm, 134, rfl⟩
abbrev main_c_23 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_c_24 : Ref sig .tc := ⟨.hbm, 141, rfl⟩
abbrev main_v91 : Ref sig .tc := ⟨.hbm, 142, rfl⟩
abbrev main_v92 : Ref sig .tc := ⟨.hbm, 143, rfl⟩
abbrev main_c_25 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101_0 : Ref sig .tc := ⟨.hbm, 153, rfl⟩
abbrev main_v101_1 : Ref sig .tc := ⟨.hbm, 154, rfl⟩
abbrev main_v102 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc4_stg6_0 : Ref sig .tc := ⟨.vmem, 44, rfl⟩
abbrev cc4_stg6_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem6_1 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2000x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  shapeCasts_S1_S1x1 : S1.ShapeCasts S1x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S200000x1_S200000 : S200000x1.ShapeCasts S200000
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  scatter_S20000_S1000000x1_S1000000_n_0_0_1_wf : ScatterDims.WF S20000 S1000000x1 S1000000 [] [0] [0] 1
  dot_S2000x128_S128x128_S2000x128_1_0_0_1_n_n_wf : DotDims.WF S2000x128 S128x128 S2000x128 [1] [0] [0] [1] [] []
  gather_S20000x128_S1000000x1_S1000000x128_1_0_n_n_0_1_1128_wf : GatherDims.WF S20000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  gather_S100000x128_S200000x1_S200000x128_1_0_n_n_0_1_1128_wf : GatherDims.WF S100000x128 S200000x1 S200000x128 [1] [0] [] [0] [] 1 ![1, 128]
  gather_S20000x128_S200000x1_S200000x128_1_0_n_n_0_1_1128_wf : GatherDims.WF S20000x128 S200000x1 S200000x128 [1] [0] [] [0] [] 1 ![1, 128]
  dot_S2000x256_S256x128_S2000x128_1_0_0_1_n_n_wf : DotDims.WF S2000x256 S256x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S20000x128.size a
  hwx0_1 : ∀ i : grid0.Coords, EltTy.bits .f32 = 32 ∨ (Rect.block (s := S20000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S20000x128.size a
  hwx0_5 : ∀ i : grid0.Coords, EltTy.bits .f32 = 32 ∨ (Rect.block (s := S20000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S20000x128.size a
  hwx2_1 : ∀ i : grid2.Coords, EltTy.bits .f32 = 32 ∨ (Rect.block (s := S20000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S20000x128.size a
  hwx2_5 : ∀ i : grid2.Coords, EltTy.bits .f32 = 32 ∨ (Rect.block (s := S20000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S200000x256.size a
  hwx4_0 : ∀ i : grid4.Coords, EltTy.bits .f32 = 32 ∨ (Rect.block (s := S200000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x1.size a ≤ S128x1.size a
  hwx4_3 : ∀ i : grid4.Coords, EltTy.bits .f32 = 32 ∨ (Rect.block (s := S128x1) S128x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S200000x128.size a
  hwx4_5 : ∀ i : grid4.Coords, EltTy.bits .f32 = 32 ∨ (Rect.block (s := S200000x128) S2000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x1.size a ≤ S200000x1.size a
  hwx4_6 : ∀ i : grid4.Coords, EltTy.bits .f32 = 32 ∨ (Rect.block (s := S200000x1) S2000x1.size (cc4_transform_6 i) (hinb4_6 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S20000x128_S200000x1_S200000x128_1_0_n_n_0_1_1128 : GatherDims S20000x128 S200000x1 S200000x128 where
  offsetDims := [1]
  collapsedSliceDims := [0]
  operandBatchingDims := []
  startIndicesBatchingDims := []
  startIndexMap := [0]
  indexVectorDim := 1
  sliceSizes := ![1, 128]
  wf := gather_S20000x128_S200000x1_S200000x128_1_0_n_n_0_1_1128_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v81) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg17) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg19) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v98) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg20) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v99) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg22) S128x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v100) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v101_0) S2000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v101_1) S2000x1.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S1000000 : Shape := ⟨1, ![1000000]⟩
abbrev S200000 : Shape := ⟨1, ![200000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩
abbrev S1000000x1 : Shape := ⟨2, ![1000000, 1]⟩
abbrev S1000000x128 : Shape := ⟨2, ![1000000, 128]⟩
abbrev S20000 : Shape := ⟨1, ![20000]⟩
abbrev S20000x1 : Shape := ⟨2, ![20000, 1]⟩
abbrev S1x128 : Shape := ⟨2, ![1, 128]⟩
abbrev S100000 : Shape := ⟨1, ![100000]⟩
abbrev S100000x1 : Shape := ⟨2, ![100000, 1]⟩
abbrev S200000x1 : Shape := ⟨2, ![200000, 1]⟩
abbrev S200000x128 : Shape := ⟨2, ![200000, 128]⟩
abbrev S200000x256 : Shape := ⟨2, ![200000, 256]⟩
abbrev S1x1 : Shape := ⟨2, ![1, 1]⟩

abbrev nBuf : Space → Nat
  | .hbm => 185
  | .vmem => 0
  | .smem => 0
  | _ => 0

abbrev hbmTy0_0 (i : Nat) : BufTy := match i % 128 with
  | 0 => ⟨S100000x128, .f32⟩
  | 1 => ⟨S20000x128, .f32⟩
  | 2 => ⟨S1000000, .i32⟩
  | 3 => ⟨S1000000, .i32⟩
  | 4 => ⟨S1000000, .i32⟩
  | 5 => ⟨S1000000, .i32⟩
  | 6 => ⟨S200000, .i32⟩
  | 7 => ⟨S200000, .i32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S256x128, .f32⟩
  | 21 => ⟨S128, .f32⟩
  | 22 => ⟨S128x1, .f32⟩
  | 23 => ⟨S1, .f32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000x128, .f32⟩
  | 33 => ⟨S_, .f32⟩
  | 34 => ⟨S20000x128, .f32⟩
  | 35 => ⟨S1000000x1, .i32⟩
  | 36 => ⟨S20000x128, .f32⟩
  | 37 => ⟨S_, .f32⟩
  | 38 => ⟨S1000000, .f32⟩
  | 39 => ⟨S_, .f32⟩
  | 40 => ⟨S20000, .f32⟩
  | 41 => ⟨S1000000x1, .i32⟩
  | 42 => ⟨S20000, .f32⟩
  | 43 => ⟨S_, .f32⟩
  | 44 => ⟨S20000, .f32⟩
  | 45 => ⟨S20000, .f32⟩
  | 46 => ⟨S20000x1, .f32⟩
  | 47 => ⟨S20000x128, .f32⟩
  | 48 => ⟨S20000x128, .f32⟩
  | 49 => ⟨S20000x128, .f32⟩
  | 50 => ⟨S1x128, .f32⟩
  | 51 => ⟨S20000x128, .f32⟩
  | 52 => ⟨S20000x128, .f32⟩
  | 53 => ⟨S20000x128, .f32⟩
  | 54 => ⟨S20000x128, .f32⟩
  | 55 => ⟨S_, .f32⟩
  | 56 => ⟨S20000x128, .f32⟩
  | 57 => ⟨S20000x128, .f32⟩
  | 58 => ⟨S_, .i32⟩
  | 59 => ⟨S1000000, .i32⟩
  | 60 => ⟨S1000000, .i1⟩
  | 61 => ⟨S_, .i32⟩
  | 62 => ⟨S1000000, .i32⟩
  | 63 => ⟨S1000000, .i32⟩
  | 64 => ⟨S1000000, .i32⟩
  | 65 => ⟨S1000000x1, .i32⟩
  | 66 => ⟨S1000000x128, .f32⟩
  | 67 => ⟨S_, .f32⟩
  | 68 => ⟨S100000x128, .f32⟩
  | 69 => ⟨S1000000x1, .i32⟩
  | 70 => ⟨S100000x128, .f32⟩
  | 71 => ⟨S_, .f32⟩
  | 72 => ⟨S1000000, .f32⟩
  | 73 => ⟨S_, .f32⟩
  | 74 => ⟨S100000, .f32⟩
  | 75 => ⟨S1000000x1, .i32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S_, .i32⟩
  | 93 => ⟨S1000000, .i32⟩
  | 94 => ⟨S1000000, .i1⟩
  | 95 => ⟨S_, .i32⟩
  | 96 => ⟨S1000000, .i32⟩
  | 97 => ⟨S1000000, .i32⟩
  | 98 => ⟨S1000000, .i32⟩
  | 99 => ⟨S1000000x1, .i32⟩
  | 100 => ⟨S1000000x128, .f32⟩
  | 101 => ⟨S_, .f32⟩
  | 102 => ⟨S20000x128, .f32⟩
  | 103 => ⟨S1000000x1, .i32⟩
  | 104 => ⟨S20000x128, .f32⟩
  | 105 => ⟨S_, .f32⟩
  | 106 => ⟨S1000000, .f32⟩
  | 107 => ⟨S_, .f32⟩
  | 108 => ⟨S20000, .f32⟩
  | 109 => ⟨S1000000x1, .i32⟩
  | 110 => ⟨S20000, .f32⟩
  | 111 => ⟨S_, .f32⟩
  | 112 => ⟨S20000, .f32⟩
  | 113 => ⟨S20000, .f32⟩
  | 114 => ⟨S20000x1, .f32⟩
  | 115 => ⟨S20000x128, .f32⟩
  | 116 => ⟨S20000x128, .f32⟩
  | 117 => ⟨S20000x128, .f32⟩
  | 118 => ⟨S1x128, .f32⟩
  | 119 => ⟨S20000x128, .f32⟩
  | 120 => ⟨S20000x128, .f32⟩
  | 121 => ⟨S20000x128, .f32⟩
  | 122 => ⟨S20000x128, .f32⟩
  | 123 => ⟨S_, .i32⟩
  | 124 => ⟨S1000000, .i32⟩
  | 125 => ⟨S1000000, .i1⟩
  | 126 => ⟨S_, .i32⟩
  | 127 => ⟨S1000000, .i32⟩
  | _ => ⟨S100000x128, .f32⟩

abbrev hbmTy0_1 (i : Nat) : BufTy := match i % 128 with
  | 0 => ⟨S1000000, .i32⟩
  | 1 => ⟨S1000000, .i32⟩
  | 2 => ⟨S1000000x1, .i32⟩
  | 3 => ⟨S1000000x128, .f32⟩
  | 4 => ⟨S_, .f32⟩
  | 5 => ⟨S100000x128, .f32⟩
  | 6 => ⟨S1000000x1, .i32⟩
  | 7 => ⟨S100000x128, .f32⟩
  | 8 => ⟨S_, .f32⟩
  | 9 => ⟨S1000000, .f32⟩
  | 10 => ⟨S_, .f32⟩
  | 11 => ⟨S100000, .f32⟩
  | 12 => ⟨S1000000x1, .i32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S100000x128, .f32⟩
  | 25 => ⟨S100000x128, .f32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S200000x128, .f32⟩
  | 35 => ⟨S_, .i32⟩
  | 36 => ⟨S200000, .i32⟩
  | 37 => ⟨S200000, .i1⟩
  | 38 => ⟨S_, .i32⟩
  | 39 => ⟨S200000, .i32⟩
  | 40 => ⟨S200000, .i32⟩
  | 41 => ⟨S200000, .i32⟩
  | 42 => ⟨S200000x1, .i32⟩
  | 43 => ⟨S200000x128, .f32⟩
  | 44 => ⟨S200000x256, .f32⟩
  | 45 => ⟨S200000x128, .f32⟩
  | 46 => ⟨S1x128, .f32⟩
  | 47 => ⟨S200000x128, .f32⟩
  | 48 => ⟨S200000x128, .f32⟩
  | 49 => ⟨S_, .f32⟩
  | 50 => ⟨S200000x128, .f32⟩
  | 51 => ⟨S200000x128, .f32⟩
  | 52 => ⟨S200000x1, .f32⟩
  | 53 => ⟨S1x1, .f32⟩
  | 54 => ⟨S200000x1, .f32⟩
  | 55 => ⟨S200000x1, .f32⟩
  | 56 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_1 : Ref sig .tc := ⟨.hbm, 37, rfl⟩
abbrev main_v10 : Ref sig .tc := ⟨.hbm, 38, rfl⟩
abbrev main_cst_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_3 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_call0_cst : Ref sig .tc := ⟨.hbm, 55, rfl⟩
abbrev main_call0_v0 : Ref sig .tc := ⟨.hbm, 56, rfl⟩
abbrev main_v25 : Ref sig .tc := ⟨.hbm, 57, rfl⟩
abbrev main_c_4 : Ref sig .tc := ⟨.hbm, 58, rfl⟩
abbrev main_v26 : Ref sig .tc := ⟨.hbm, 59, rfl⟩
abbrev main_v27 : Ref sig .tc := ⟨.hbm, 60, rfl⟩
abbrev main_c_5 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_6 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_7 : Ref sig .tc := ⟨.hbm, 71, rfl⟩
abbrev main_v36 : Ref sig .tc := ⟨.hbm, 72, rfl⟩
abbrev main_cst_8 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_9 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_call1_cst : Ref sig .tc := ⟨.hbm, 89, rfl⟩
abbrev main_call1_v0 : Ref sig .tc := ⟨.hbm, 90, rfl⟩
abbrev main_v51 : Ref sig .tc := ⟨.hbm, 91, rfl⟩
abbrev main_c_10 : Ref sig .tc := ⟨.hbm, 92, rfl⟩
abbrev main_v52 : Ref sig .tc := ⟨.hbm, 93, rfl⟩
abbrev main_v53 : Ref sig .tc := ⟨.hbm, 94, rfl⟩
abbrev main_c_11 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_12 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_13 : Ref sig .tc := ⟨.hbm, 105, rfl⟩
abbrev main_v62 : Ref sig .tc := ⟨.hbm, 106, rfl⟩
abbrev main_cst_14 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_15 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_c_16 : Ref sig .tc := ⟨.hbm, 123, rfl⟩
abbrev main_v77 : Ref sig .tc := ⟨.hbm, 124, rfl⟩
abbrev main_v78 : Ref sig .tc := ⟨.hbm, 125, rfl⟩
abbrev main_c_17 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_cst_18 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_19 : Ref sig .tc := ⟨.hbm, 136, rfl⟩
abbrev main_v87 : Ref sig .tc := ⟨.hbm, 137, rfl⟩
abbrev main_cst_20 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_cst_21 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_c_22 : Ref sig .tc := ⟨.hbm, 154, rfl⟩
abbrev main_v102 : Ref sig .tc := ⟨.hbm, 155, rfl⟩
abbrev main_v103 : Ref sig .tc := ⟨.hbm, 156, rfl⟩
abbrev main_c_23 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_c_24 : Ref sig .tc := ⟨.hbm, 163, rfl⟩
abbrev main_v109 : Ref sig .tc := ⟨.hbm, 164, rfl⟩
abbrev main_v110 : Ref sig .tc := ⟨.hbm, 165, rfl⟩
abbrev main_c_25 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_call2_cst : Ref sig .tc := ⟨.hbm, 177, rfl⟩
abbrev main_call2_v0 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  scatter_S20000_S1000000x1_S1000000_n_0_0_1_wf : ScatterDims.WF S20000 S1000000x1 S1000000 [] [0] [0] 1
  dot_S20000x128_S128x128_S20000x128_1_0_0_1_n_n_wf : DotDims.WF S20000x128 S128x128 S20000x128 [1] [0] [0] [1] [] []
  gather_S20000x128_S1000000x1_S1000000x128_1_0_n_n_0_1_1128_wf : GatherDims.WF S20000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []
  gather_S100000x128_S200000x1_S200000x128_1_0_n_n_0_1_1128_wf : GatherDims.WF S100000x128 S200000x1 S200000x128 [1] [0] [] [0] [] 1 ![1, 128]
  gather_S20000x128_S200000x1_S200000x128_1_0_n_n_0_1_1128_wf : GatherDims.WF S20000x128 S200000x1 S200000x128 [1] [0] [] [0] [] 1 ![1, 128]
  dot_S200000x256_S256x128_S200000x128_1_0_0_1_n_n_wf : DotDims.WF S200000x256 S256x128 S200000x128 [1] [0] [0] [1] [] []
  dot_S200000x128_S128x1_S200000x1_1_0_0_1_n_n_wf : DotDims.WF S200000x128 S128x1 S200000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S20000x128_S200000x1_S200000x128_1_0_n_n_0_1_1128 : GatherDims S20000x128 S200000x1 S200000x128 where
  offsetDims := [1]
  collapsedSliceDims := [0]
  operandBatchingDims := []
  startIndicesBatchingDims := []
  startIndexMap := [0]
  indexVectorDim := 1
  sliceSizes := ![1, 128]
  wf := gather_S20000x128_S200000x1_S200000x128_1_0_n_n_0_1_1128_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.KernelRun.lean ====
/-
  THE IDEALIZED KERNEL PROGRAM'S RUN, WITH EVERY BUFFER'S FINAL CONTENTS.

  @main is six stretches of host operations around five grids of tiles. The buffer contents at each boundary are a fold
  from the launch memory: a stretch applies its operations' functions, a grid leaves each of its output arrays at what
  its tiles' write-backs assemble and every other buffer alone. The generated frame states, of that run, only that the
  argument arrays end unchanged; the same launch over the same segments gives more: EVERY buffer that is not scoped
  scratch ends holding the last boundary's contents. That is what the value claim reads its three results from.
-/
import proofs.«102371_j7765300871785_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer that is not scoped scratch at
    the contents the fold through the stretches and the grids ends with. -/
theorem run_end : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W11 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c b hb => h c _ (mem_uc b hb))

end Cert.KernelIdeal.Bridge

end
-- ==== Proof.Fold.lean ====
/-
  WHAT EACH SEGMENT OF THE KERNEL PROGRAM LEAVES ALONE.

  The buffer contents at the eleven boundaries of @main are a fold: a stretch of host operations rewrites exactly the
  buffers its operations name as results; a grid rewrites exactly its output arrays (an input array is read back as
  it was found, every other buffer is untouched). So a buffer keeps its contents across a stretch that does not
  write it and across a grid of which it is not an output. These are the links by which an argument array, or an
  earlier grid's output, is carried unchanged to the place where it is read.
-/
import proofs.«102371_j7765300871785_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The buffers stretch 0's operations write. -/
abbrev wr0 : List (Ref sig .tc) := [main_c, main_v0, main_v1, main_c_0, main_v2, main_v3, main_v4, main_v5, main_v6, main_cst, main_v7, main_v8, main_v9, main_cst_1, main_v10, main_cst_2, main_v11, main_v12, main_v13, main_cst_3, main_v14, main_v15, main_v16, main_v17, main_v18, main_v19]
theorem writes0 : (hostOps0 : List (HloOp τ sig (Elt F))).Forall fun op => op.writes ⊆ (wr0.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 0 does not write keeps its contents across it. -/
theorem keep1 (c : Dev nD) (b : Ref sig .tc) (h : b ∉ wr0) :
    W1 m ρ c (Proc.devRef .tc b) = W0 m ρ c (Proc.devRef .tc b) :=
  StableHlo.after_of_writes_sub hostOps0 _ writes0 h

/-- The buffers stretch 1's operations write. -/
abbrev wr1 : List (Ref sig .tc) := [main_c_4, main_v21, main_v22, main_c_5, main_v23, main_v24, main_v25, main_v26, main_v27, main_cst_6, main_v28, main_v29, main_v30, main_cst_7, main_v31, main_cst_8, main_v32, main_v33, main_v34, main_cst_9, main_v35, main_v36, main_v37, main_v38, main_v39, main_v40]
theorem writes1 : (hostOps1 : List (HloOp τ sig (Elt F))).Forall fun op => op.writes ⊆ (wr1.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 1 does not write keeps its contents across it. -/
theorem keep3 (c : Dev nD) (b : Ref sig .tc) (h : b ∉ wr1) :
    W3 m ρ c (Proc.devRef .tc b) = W2 m ρ c (Proc.devRef .tc b) :=
  StableHlo.after_of_writes_sub hostOps1 _ writes1 h

/-- The buffers stretch 2's operations write. -/
abbrev wr2 : List (Ref sig .tc) := [main_c_10, main_v42, main_v43, main_c_11, main_v44, main_v45, main_v46, main_v47, main_v48, main_cst_12, main_v49, main_v50, main_v51, main_cst_13, main_v52, main_cst_14, main_v53, main_v54, main_v55, main_cst_15, main_v56, main_v57, main_v58, main_v59, main_v60, main_v61]
theorem writes2 : (hostOps2 : List (HloOp τ sig (Elt F))).Forall fun op => op.writes ⊆ (wr2.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 2 does not write keeps its contents across it. -/
theorem keep5 (c : Dev nD) (b : Ref sig .tc) (h : b ∉ wr2) :
    W5 m ρ c (Proc.devRef .tc b) = W4 m ρ c (Proc.devRef .tc b) :=
  StableHlo.after_of_writes_sub hostOps2 _ writes2 h

/-- The buffers stretch 3's operations write. -/
abbrev wr3 : List (Ref sig .tc) := [main_c_16, main_v63, main_v64, main_c_17, main_v65, main_v66, main_v67, main_v68, main_v69, main_cst_18, main_v70, main_v71, main_v72, main_cst_19, main_v73, main_cst_20, main_v74, main_v75, main_v76, main_cst_21, main_v77, main_v78, main_v79, main_v80, main_v81, main_v82]
theorem writes3 : (hostOps3 : List (HloOp τ sig (Elt F))).Forall fun op => op.writes ⊆ (wr3.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 3 does not write keeps its contents across it. -/
theorem keep7 (c : Dev nD) (b : Ref sig .tc) (h : b ∉ wr3) :
    W7 m ρ c (Proc.devRef .tc b) = W6 m ρ c (Proc.devRef .tc b) :=
  StableHlo.after_of_writes_sub hostOps3 _ writes3 h

/-- The buffers stretch 4's operations write. -/
abbrev wr4 : List (Ref sig .tc) := [main_c_22, main_v84, main_v85, main_c_23, main_v86, main_v87, main_v88, main_v89, main_v90, main_c_24, main_v91, main_v92, main_c_25, main_v93, main_v94, main_v95, main_v96, main_v97, main_v98, main_v99, main_v100]
theorem writes4 : (hostOps4 : List (HloOp τ sig (Elt F))).Forall fun op => op.writes ⊆ (wr4.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 4 does not write keeps its contents across it. -/
theorem keep9 (c : Dev nD) (b : Ref sig .tc) (h : b ∉ wr4) :
    W9 m ρ c (Proc.devRef .tc b) = W8 m ρ c (Proc.devRef .tc b) :=
  StableHlo.after_of_writes_sub hostOps4 _ writes4 h

/-- The buffers stretch 5's operations write. -/
abbrev wr5 : List (Ref sig .tc) := [main_v102]
theorem writes5 : (hostOps5 : List (HloOp τ sig (Elt F))).Forall fun op => op.writes ⊆ (wr5.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 5 does not write keeps its contents across it. -/
theorem keep11 (c : Dev nD) (b : Ref sig .tc) (h : b ∉ wr5) :
    W11 m ρ c (Proc.devRef .tc b) = W10 m ρ c (Proc.devRef .tc b) :=
  StableHlo.after_of_writes_sub hostOps5 _ writes5 h

/-- A buffer that is not an output of grid 0 keeps its contents across it: an input array is read back as found,
    any other buffer is not touched. -/
theorem keep2 (c : Dev nD) (b : Ref sig .tc) (h0 : b ≠ main_v20) :
    W2 m ρ c (Proc.devRef .tc b) = W1 m ρ c (Proc.devRef .tc b) := by
  by_cases h : ∀ w, Pipeline.arrRef spec0 w ≠ b
  · exact W2_of_ne m ρ c b h
  · rw [not_forall] at h
    obtain ⟨w, hw⟩ := h
    have hw' : Pipeline.arrRef spec0 w = b := not_not.mp hw
    subst hw'
    fin_cases w
    · exact (W2_arr m ρ c 0).trans (((dat0 (V1 m ρ) c).arrAt_in 0 rfl _).trans (A_eq0 (V1 m ρ) c 0))
    · exact (W2_arr m ρ c 1).trans (((dat0 (V1 m ρ) c).arrAt_in 1 rfl _).trans (A_eq0 (V1 m ρ) c 1))
    · exact (W2_arr m ρ c 2).trans (((dat0 (V1 m ρ) c).arrAt_in 2 rfl _).trans (A_eq0 (V1 m ρ) c 2))
    · exact (W2_arr m ρ c 3).trans (((dat0 (V1 m ρ) c).arrAt_in 3 rfl _).trans (A_eq0 (V1 m ρ) c 3))
    · exact (W2_arr m ρ c 4).trans (((dat0 (V1 m ρ) c).arrAt_in 4 rfl _).trans (A_eq0 (V1 m ρ) c 4))
    · exact absurd rfl h0

/-- A buffer that is not an output of grid 1 keeps its contents across it: an input array is read back as found,
    any other buffer is not touched. -/
theorem keep4 (c : Dev nD) (b : Ref sig .tc) (h0 : b ≠ main_v41) :
    W4 m ρ c (Proc.devRef .tc b) = W3 m ρ c (Proc.devRef .tc b) := by
  by_cases h : ∀ w, Pipeline.arrRef spec1 w ≠ b
  · exact W4_of_ne m ρ c b h
  · rw [not_forall] at h
    obtain ⟨w, hw⟩ := h
    have hw' : Pipeline.arrRef spec1 w = b := not_not.mp hw
    subst hw'
    fin_cases w
    · exact (W4_arr m ρ c 0).trans (((dat1 (V3 m ρ) c).arrAt_in 0 rfl _).trans (A_eq1 (V3 m ρ) c 0))
    · exact (W4_arr m ρ c 1).trans (((dat1 (V3 m ρ) c).arrAt_in 1 rfl _).trans (A_eq1 (V3 m ρ) c 1))
    · exact (W4_arr m ρ c 2).trans (((dat1 (V3 m ρ) c).arrAt_in 2 rfl _).trans (A_eq1 (V3 m ρ) c 2))
    · exact (W4_arr m ρ c 3).trans (((dat1 (V3 m ρ) c).arrAt_in 3 rfl _).trans (A_eq1 (V3 m ρ) c 3))
    · exact (W4_arr m ρ c 4).trans (((dat1 (V3 m ρ) c).arrAt_in 4 rfl _).trans (A_eq1 (V3 m ρ) c 4))
    · exact absurd rfl h0

/-- A buffer that is not an output of grid 2 keeps its contents across it: an input array is read back as found,
    any other buffer is not touched. -/
theorem keep6 (c : Dev nD) (b : Ref sig .tc) (h0 : b ≠ main_v62) :
    W6 m ρ c (Proc.devRef .tc b) = W5 m ρ c (Proc.devRef .tc b) := by
  by_cases h : ∀ w, Pipeline.arrRef spec2 w ≠ b
  · exact W6_of_ne m ρ c b h
  · rw [not_forall] at h
    obtain ⟨w, hw⟩ := h
    have hw' : Pipeline.arrRef spec2 w = b := not_not.mp hw
    subst hw'
    fin_cases w
    · exact (W6_arr m ρ c 0).trans (((dat2 (V5 m ρ) c).arrAt_in 0 rfl _).trans (A_eq2 (V5 m ρ) c 0))
    · exact (W6_arr m ρ c 1).trans (((dat2 (V5 m ρ) c).arrAt_in 1 rfl _).trans (A_eq2 (V5 m ρ) c 1))
    · exact (W6_arr m ρ c 2).trans (((dat2 (V5 m ρ) c).arrAt_in 2 rfl _).trans (A_eq2 (V5 m ρ) c 2))
    · exact (W6_arr m ρ c 3).trans (((dat2 (V5 m ρ) c).arrAt_in 3 rfl _).trans (A_eq2 (V5 m ρ) c 3))
    · exact (W6_arr m ρ c 4).trans (((dat2 (V5 m ρ) c).arrAt_in 4 rfl _).trans (A_eq2 (V5 m ρ) c 4))
    · exact absurd rfl h0

/-- A buffer that is not an output of grid 3 keeps its contents across it: an input array is read back as found,
    any other buffer is not touched. -/
theorem keep8 (c : Dev nD) (b : Ref sig .tc) (h0 : b ≠ main_v83) :
    W8 m ρ c (Proc.devRef .tc b) = W7 m ρ c (Proc.devRef .tc b) := by
  by_cases h : ∀ w, Pipeline.arrRef spec3 w ≠ b
  · exact W8_of_ne m ρ c b h
  · rw [not_forall] at h
    obtain ⟨w, hw⟩ := h
    have hw' : Pipeline.arrRef spec3 w = b := not_not.mp hw
    subst hw'
    fin_cases w
    · exact (W8_arr m ρ c 0).trans (((dat3 (V7 m ρ) c).arrAt_in 0 rfl _).trans (A_eq3 (V7 m ρ) c 0))
    · exact (W8_arr m ρ c 1).trans (((dat3 (V7 m ρ) c).arrAt_in 1 rfl _).trans (A_eq3 (V7 m ρ) c 1))
    · exact (W8_arr m ρ c 2).trans (((dat3 (V7 m ρ) c).arrAt_in 2 rfl _).trans (A_eq3 (V7 m ρ) c 2))
    · exact (W8_arr m ρ c 3).trans (((dat3 (V7 m ρ) c).arrAt_in 3 rfl _).trans (A_eq3 (V7 m ρ) c 3))
    · exact (W8_arr m ρ c 4).trans (((dat3 (V7 m ρ) c).arrAt_in 4 rfl _).trans (A_eq3 (V7 m ρ) c 4))
    · exact absurd rfl h0

/-- A buffer that is not an output of grid 4 keeps its contents across it: an input array is read back as found,
    any other buffer is not touched. -/
theorem keep10 (c : Dev nD) (b : Ref sig .tc) (h0 : b ≠ main_v101_0) (h1 : b ≠ main_v101_1) :
    W10 m ρ c (Proc.devRef .tc b) = W9 m ρ c (Proc.devRef .tc b) := by
  by_cases h : ∀ w, Pipeline.arrRef spec4 w ≠ b
  · exact W10_of_ne m ρ c b h
  · rw [not_forall] at h
    obtain ⟨w, hw⟩ := h
    have hw' : Pipeline.arrRef spec4 w = b := not_not.mp hw
    subst hw'
    fin_cases w
    · exact (W10_arr m ρ c 0).trans (((dat4 (V9 m ρ) c).arrAt_in 0 rfl _).trans (A_eq4 (V9 m ρ) c 0))
    · exact (W10_arr m ρ c 1).trans (((dat4 (V9 m ρ) c).arrAt_in 1 rfl _).trans (A_eq4 (V9 m ρ) c 1))
    · exact (W10_arr m ρ c 2).trans (((dat4 (V9 m ρ) c).arrAt_in 2 rfl _).trans (A_eq4 (V9 m ρ) c 2))
    · exact (W10_arr m ρ c 3).trans (((dat4 (V9 m ρ) c).arrAt_in 3 rfl _).trans (A_eq4 (V9 m ρ) c 3))
    · exact (W10_arr m ρ c 4).trans (((dat4 (V9 m ρ) c).arrAt_in 4 rfl _).trans (A_eq4 (V9 m ρ) c 4))
    · exact absurd rfl h0
    · exact absurd rfl h1

end Cert.KernelIdeal.Fold

end
-- ==== Proof.LibPlainDot.lean ====
/-
  A PLAIN MATRIX PRODUCT READ AT AN INDEX.

  A product of an `M × K` by a `K × N` matrix with no batch axis (left operand contracted on its last axis, right
  operand on its first) has one contraction axis of extent `K`. At the exact instance both the matrix unit's product into
  a zero accumulator and the host's `dot_general` are, at the output index `(p, q)`, the plain sum over `k` of the left
  operand at `(p, k)` times the right operand at `(k, q)`.
-/
import Idealize.ShloMosaic.PureOps
import Idealize.ShloMosaic.PureOps.Ideal.Laws
import Idealize.ShloMosaic.Lib.ValueIdx

namespace Idealize.PlainDot

open Idealize.ShloMosaic Idealize.ShloMosaic.ValueIdx

/-- Dimension numbers with the plain fields are `DotDims.plain` (whatever proof of their conditions they carry). -/
theorem eq_plain {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  obtain ⟨lc, rc, ln, rn, lb, rb, wf⟩ := d
  dsimp only at h1 h2 h3 h4 h5 h6
  subst h1 h2 h3 h4 h5 h6
  rfl

/-- THE CONTRACTION AS A PLAIN SUM: over the one contraction axis of a plain product, the sum of the products of the
    operands at the dot's operand indices for output `(p, q)` is the sum over `k : Fin K` of `l (p, k) * r (k, q)`. -/
theorem plain_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- THE MATRIX UNIT'S PRODUCT INTO A ZERO ACCUMULATOR, read at `(p, q)`. -/
theorem matmul_zero_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    matmul d prec l r (constant (⟨2, ![M, N]⟩ : Shape) .f32 0x00000000#32) (ix2 p q)
      = ∑ k : Fin K, l (ix2 p k) * r (ix2 k q) := by
  subst hd
  show FloatOps.matmul _ prec l r _ _ = _
  rw [Ideal.matmul_constant_zero_apply]
  exact plain_sum l r p q

/-- THE HOST'S `dot_general`, read at `(p, q)`. -/
theorem dotGeneral_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Idealize.PlainDot
-- ==== Proof.LibSageLin.lean ====
/-
  A DENSE LAYER READ AT AN INDEX, ON THE EXTENDED REALS.

  For a row table `a` of shape [R, K], a weight matrix `W` of shape [K, C] and a bias row `b` of shape [1, C], the layer
  `a · W + b` has at the entry (p, q) the value  ∑ₖ a(p, k) · W(k, q) + b(0, q)   (`lin1`); the two-sided layer
  `a · Wl + b + x · Wr` adds the second product to it, in that order (`lin2`); the rectifier is the pointwise maximum with
  the value of the all-zero float word (`relu`).

  Two spellings of the one-sided layer are read here at an index, both by the plain-product law: a matrix unit's
  product into a zero accumulator plus a bias row broadcast over the rows (`tile_lin1`), and a host `dot_general` plus any
  array whose every row is the bias row (`host_lin1`). The bias row of a rank-1 vector is `row v`: the vector's
  reshape to [1, C] (`shapeCast_row`), and the row every line of its two-step broadcast to [R, C] holds
  (`bcast_row_apply`). Because both spellings are the same sums in the same order, no finiteness is needed anywhere.
-/
import Idealize.ShloMosaic.PureOps
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«102371_j7765300871785_1_alg».proof.Proof.LibPlainDot

noncomputable section

namespace Idealize.SageLin

open Idealize.ShloMosaic Idealize.ShloMosaic.ValueIdx

/-- An [R, C] array of extended reals. -/
abbrev Mat (R C : Nat) := (⟨2, ![R, C]⟩ : Shape).Idx → EReal

/-- `a · W + b` at (p, q): the sum over k of a(p, k) · W(k, q), plus the bias row at q. -/
def lin1 {R K C : Nat} (a : Mat R K) (W : Mat K C) (b : Mat 1 C) : Mat R C :=
  fun i => (∑ k : Fin K, a (ix2 (i 0) k) * W (ix2 k (i 1))) + b (ix2 (0 : Fin 1) (i 1))

/-- `a · Wl + b + x · Wr` at (p, q), the second product added last. -/
def lin2 {R K C : Nat} (a x : Mat R K) (Wl : Mat K C) (b : Mat 1 C) (Wr : Mat K C) : Mat R C :=
  fun i => lin1 a Wl b i + ∑ k : Fin K, x (ix2 (i 0) k) * Wr (ix2 k (i 1))

/-- The rectifier: the pointwise maximum with the value of the all-zero float word. -/
def relu {R C : Nat} (v : Mat R C) : Mat R C := fun i => max (v i) (Ideal.ofBits .f32 0x00000000#32 : EReal)

/-- A rank-1 vector as a bias row. -/
def row {C : Nat} (v : (⟨1, ![C]⟩ : Shape).Idx → EReal) : Mat 1 C := fun i => v (ix1 (i 1))

theorem lin1_apply {R K C : Nat} (a : Mat R K) (W : Mat K C) (b : Mat 1 C) (p : Fin R) (q : Fin C) :
    lin1 a W b (ix2 p q) = (∑ k : Fin K, a (ix2 p k) * W (ix2 k q)) + b (ix2 (0 : Fin 1) q) := rfl

theorem lin2_apply {R K C : Nat} (a x : Mat R K) (Wl : Mat K C) (b : Mat 1 C) (Wr : Mat K C) (p : Fin R) (q : Fin C) :
    lin2 a x Wl b Wr (ix2 p q)
      = (∑ k : Fin K, a (ix2 p k) * Wl (ix2 k q)) + b (ix2 (0 : Fin 1) q) + ∑ k : Fin K, x (ix2 p k) * Wr (ix2 k q) := rfl

/-- The matrix unit's product into a zero accumulator, plus the bias row broadcast over the rows, is `lin1`. -/
theorem tile_lin1 {T K C : Nat} {φ₁ φ₂ : FTy} (d : DotDims ⟨2, ![T, K]⟩ ⟨2, ![K, C]⟩ ⟨2, ![T, C]⟩)
    (hd : d = DotDims.plain T K C) (prec : Option ContractPrecision)
    (x : FVec Ideal ⟨2, ![T, K]⟩ φ₁) (W : FVec Ideal ⟨2, ![K, C]⟩ φ₂) (b : FVec Ideal ⟨2, ![1, C]⟩ .f32)
    (hb : (⟨2, ![1, C]⟩ : Shape).Broadcasts ⟨2, ![T, C]⟩) :
    addf (matmul d prec x W (constant (⟨2, ![T, C]⟩ : Shape) .f32 0x00000000#32)) (broadcastTo ⟨2, ![T, C]⟩ b hb)
      = lin1 x W b := by
  funext i
  obtain ⟨p, q, rfl⟩ : ∃ (p : Fin T) (q : Fin C), i = ix2 p q := ⟨i 0, i 1, eq_ix2 i⟩
  rw [addf_apply, Idealize.PlainDot.matmul_zero_apply d hd prec x W p q, broadcastTo_1b_ab_apply b hb p q]
  rfl

/-- The host's `dot_general` plus an array whose every row is the bias row is `lin1`. -/
theorem host_lin1 {R K C : Nat} {φ₁ φ₂ : FTy} (d : DotDims ⟨2, ![R, K]⟩ ⟨2, ![K, C]⟩ ⟨2, ![R, C]⟩)
    (hd : d = DotDims.plain R K C) (prec : Option ContractPrecision)
    (a : FVec Ideal ⟨2, ![R, K]⟩ φ₁) (W : FVec Ideal ⟨2, ![K, C]⟩ φ₂) (bb : FVec Ideal ⟨2, ![R, C]⟩ .f32) (b : Mat 1 C)
    (hbb : ∀ (p : Fin R) (q : Fin C), bb (ix2 p q) = b (ix2 (0 : Fin 1) q)) :
    addf (Host.dotGeneral d prec a W) bb = lin1 a W b := by
  funext i
  obtain ⟨p, q, rfl⟩ : ∃ (p : Fin R) (q : Fin C), i = ix2 p q := ⟨i 0, i 1, eq_ix2 i⟩
  rw [addf_apply, Idealize.PlainDot.dotGeneral_apply d hd prec a W p q, hbb p q]
  rfl

/-- Adding a second matrix-unit product to `lin1` gives `lin2`. -/
theorem tile_lin2 {T K C : Nat} {φ₁ φ₂ : FTy} (d : DotDims ⟨2, ![T, K]⟩ ⟨2, ![K, C]⟩ ⟨2, ![T, C]⟩)
    (hd : d = DotDims.plain T K C) (prec : Option ContractPrecision) (a : Mat T K) (Wl : Mat K C) (b : Mat 1 C)
    (x : FVec Ideal ⟨2, ![T, K]⟩ φ₁) (Wr : FVec Ideal ⟨2, ![K, C]⟩ φ₂) :
    addf (F := Ideal) (φ := .f32) (lin1 a Wl b) (matmul d prec x Wr (constant (⟨2, ![T, C]⟩ : Shape) .f32 0x00000000#32))
      = lin2 a x Wl b Wr := by
  funext i
  obtain ⟨p, q, rfl⟩ : ∃ (p : Fin T) (q : Fin C), i = ix2 p q := ⟨i 0, i 1, eq_ix2 i⟩
  rw [addf_apply, Idealize.PlainDot.matmul_zero_apply d hd prec x Wr p q]
  rfl

/-- Adding a second host product to `lin1` gives `lin2`. -/
theorem host_lin2 {R K C : Nat} {φ₁ φ₂ : FTy} (d : DotDims ⟨2, ![R, K]⟩ ⟨2, ![K, C]⟩ ⟨2, ![R, C]⟩)
    (hd : d = DotDims.plain R K C) (prec : Option ContractPrecision) (a : Mat R K) (Wl : Mat K C) (b : Mat 1 C)
    (x : FVec Ideal ⟨2, ![R, K]⟩ φ₁) (Wr : FVec Ideal ⟨2, ![K, C]⟩ φ₂) :
    addf (F := Ideal) (φ := .f32) (lin1 a Wl b) (Host.dotGeneral d prec x Wr) = lin2 a x Wl b Wr := by
  funext i
  obtain ⟨p, q, rfl⟩ : ∃ (p : Fin R) (q : Fin C), i = ix2 p q := ⟨i 0, i 1, eq_ix2 i⟩
  rw [addf_apply, Idealize.PlainDot.dotGeneral_apply d hd prec x Wr p q]
  rfl

/-- The maximum with a splat of the zero word (a scalar broadcast) is the rectifier. -/
theorem max_splat_relu {R C : Nat} (v : Mat R C) :
    maximumf (F := Ideal) (φ := .f32) v (broadcast (⟨2, ![R, C]⟩ : Shape) (Scalar.ofBits (F := Ideal) .f32 0x00000000#32)) = relu v := by
  funext i
  rfl

/-- The maximum with any array that holds the zero word's value everywhere is the rectifier. -/
theorem max_zero_relu {R C : Nat} (v : Mat R C) (z : FVec Ideal ⟨2, ![R, C]⟩ .f32)
    (hz : ∀ i, z i = (Ideal.ofBits .f32 0x00000000#32 : EReal)) : maximumf (F := Ideal) (φ := .f32) v z = relu v := by
  funext i
  rw [maximumf_apply, hz i]
  rfl

/-- A rank-1 vector reshaped to [1, C] is its bias row. -/
theorem shapeCast_row {C : Nat} (v : (⟨1, ![C]⟩ : Shape).Idx → EReal) (h : (⟨1, ![C]⟩ : Shape).ShapeCasts ⟨2, ![1, C]⟩) :
    shapeCast ⟨2, ![1, C]⟩ v h = row v := by
  funext i
  obtain ⟨u, q, rfl⟩ : ∃ (u : Fin 1) (q : Fin C), i = ix2 u q := ⟨i 0, i 1, eq_ix2 i⟩
  rw [shapeCast_a_1a_apply v h u q]
  rfl

/-- `lin1` at two entries agrees when the rows, the weight columns and the bias entries they read agree. -/
theorem lin1_congr {R T K C C' : Nat} (A : Mat R K) (WL : Mat K C') (B : Mat 1 C') (a : Mat T K) (wl : Mat K C) (b : Mat 1 C)
    (p : Fin T) (q : Fin C) (P : Fin R) (Q : Fin C')
    (ha : ∀ k : Fin K, a (ix2 p k) = A (ix2 P k)) (hwl : ∀ k : Fin K, wl (ix2 k q) = WL (ix2 k Q))
    (hb : b (ix2 (0 : Fin 1) q) = B (ix2 (0 : Fin 1) Q)) :
    lin1 a wl b (ix2 p q) = lin1 A WL B (ix2 P Q) := by
  rw [lin1_apply, lin1_apply, hb]
  exact congrArg (· + B (ix2 (0 : Fin 1) Q)) (Finset.sum_congr rfl fun k _ => by rw [ha k, hwl k])

/-- `lin2` at two entries agrees when the rows, the weight columns and the bias entries they read agree. -/
theorem lin2_congr {R T K C C' : Nat} (A X : Mat R K) (WL : Mat K C') (B : Mat 1 C') (WR : Mat K C')
    (a x : Mat T K) (wl : Mat K C) (b : Mat 1 C) (wr : Mat K C)
    (p : Fin T) (q : Fin C) (P : Fin R) (Q : Fin C')
    (ha : ∀ k : Fin K, a (ix2 p k) = A (ix2 P k)) (hx : ∀ k : Fin K, x (ix2 p k) = X (ix2 P k))
    (hwl : ∀ k : Fin K, wl (ix2 k q) = WL (ix2 k Q)) (hwr : ∀ k : Fin K, wr (ix2 k q) = WR (ix2 k Q))
    (hb : b (ix2 (0 : Fin 1) q) = B (ix2 (0 : Fin 1) Q)) :
    lin2 a x wl b wr (ix2 p q) = lin2 A X WL B WR (ix2 P Q) := by
  rw [lin2_apply, lin2_apply, hb,
    Finset.sum_congr rfl (fun k _ => by rw [ha k, hwl k] :
      ∀ k ∈ (Finset.univ : Finset (Fin K)), a (ix2 p k) * wl (ix2 k q) = A (ix2 P k) * WL (ix2 k Q)),
    Finset.sum_congr rfl (fun k _ => by rw [hx k, hwr k] :
      ∀ k ∈ (Finset.univ : Finset (Fin K)), x (ix2 p k) * wr (ix2 k q) = X (ix2 P k) * WR (ix2 k Q))]

theorem relu_apply {R C : Nat} (v : Mat R C) (i : (⟨2, ![R, C]⟩ : Shape).Idx) :
    relu v i = max (v i) (Ideal.ofBits .f32 0x00000000#32 : EReal) := rfl

/-- Every line of a rank-1 vector's two-step broadcast to [R, C] (first to [1, C], then over the rows) is its bias row. -/
theorem bcast_row_apply {R C : Nat} (v : (⟨1, ![C]⟩ : Shape).Idx → EReal)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (q : Fin C) :
    broadcastInDim ⟨2, ![R, C]⟩ ![0, 1] h2 (broadcastInDim ⟨2, ![1, C]⟩ ![1] h1 v) (ix2 p q) = row v (ix2 (0 : Fin 1) q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  rw [broadcastInDim_apply ![1] h1 v (ix2 (0 : Fin 1) q) (ix1 q) (fun a => by
    match a with
    | ⟨0, _⟩ =>
      show q.val = if C = 1 then 0 else q.val
      split
      · have := q.isLt; omega
      · rfl)]
  rfl

/-- A scalar float constant broadcast to any shape holds the constant's value everywhere. -/
theorem bcast_const_apply {S : Shape} (h : (⟨0, ![]⟩ : Shape).BroadcastsInDim S ![]) (w : BitVec 32) (i : S.Idx) :
    broadcastInDim S ![] h (constant (F := Ideal) ⟨0, ![]⟩ .f32 w) i = (Ideal.ofBits .f32 w : EReal) := by
  rw [broadcastInDim_apply ![] h _ i ix0 (fun a => a.elim0)]
  rfl

end Idealize.SageLin

end
-- ==== Proof.Spec.lean ====
/-
  THE SPECIFICATION: what both programs compute, as one function of the twenty-four argument arrays.

  A two-layer mean-aggregation graph network on two node types (100000 "author" rows and 20000 "hotel" rows of 128
  features) followed by an edge decoder. For one direction of edges, the messages are the source rows gathered by
  the (wrapped) source indices, summed into the destination rows, and divided by max(in-degree, 1) (`meanH`, `meanA`:
  host operations that both programs spell identically). Each layer then is  agg · Wl + b + x · Wr  on the destination
  type, rectified in the first layer. The decoder gathers an author row and a hotel row per labelled edge, puts them
  side by side (`z1`), and applies a rectified 256 → 128 layer and a 128 → 1 layer.
  The dense layers are a parameter (`Layers`): the specification proper takes them index by index on the extended reals
  (`specL`); the reference spells them with host products, and is shown equal to this.
-/
import proofs.«102371_j7765300871785_1_alg».proof.KernelIdeal
import proofs.«102371_j7765300871785_1_alg».proof.Proof.LibSageLin

noncomputable section

namespace Cert.Spec

open Cert.KernelIdeal Cert.KernelIdeal.Facts₀ Idealize.ShloMosaic Idealize.SageLin

-- the side conditions the program states of its layout operations (broadcasts, reshapes, the concatenation)
variable [Cert.KernelIdeal.Facts₀]

/-- A float array and an index array of a shape, on the extended reals. -/
abbrev Fc (S : Shape) := (⟨S, .f32⟩ : BufTy).Contents (Elt Ideal)
abbrev Ic (S : Shape) := (⟨S, .i32⟩ : BufTy).Contents (Elt Ideal)

/-- The argument arrays, by position. -/
structure Args where
  a0 : Fc S100000x128
  a1 : Fc S20000x128
  a2 : Ic S1000000
  a3 : Ic S1000000
  a4 : Ic S1000000
  a5 : Ic S1000000
  a6 : Ic S200000
  a7 : Ic S200000
  a8 : Fc S128x128
  a9 : Fc S128
  a10 : Fc S128x128
  a11 : Fc S128x128
  a12 : Fc S128
  a13 : Fc S128x128
  a14 : Fc S128x128
  a15 : Fc S128
  a16 : Fc S128x128
  a17 : Fc S128x128
  a18 : Fc S128
  a19 : Fc S128x128
  a20 : Fc S256x128
  a21 : Fc S128
  a22 : Fc S128x1
  a23 : Fc S1

/-- An index vector with its negative entries wrapped by `n`, as a one-column index array (1000000 edges). -/
def wrapE (n : BitVec 32) (s : Ic S1000000) : Ic S1000000x1 :=
  broadcastInDim S1000000x1 ![0] bcast_S1000000_S1000000x1_0
    (select (cmpi .slt s (broadcastInDim S1000000 ![] bcast_S_S1000000 (constantI S_ 32 0#32)))
      (addi s (broadcastInDim S1000000 ![] bcast_S_S1000000 (constantI S_ 32 n))) s)

/-- The same for the 200000 labelled edges. -/
def wrapL (n : BitVec 32) (s : Ic S200000) : Ic S200000x1 :=
  broadcastInDim S200000x1 ![0] bcast_S200000_S200000x1_0
    (select (cmpi .slt s (broadcastInDim S200000 ![] bcast_S_S200000 (constantI S_ 32 0#32)))
      (addi s (broadcastInDim S200000 ![] bcast_S_S200000 (constantI S_ 32 n))) s)

/-- Mean aggregation into the 20000 hotel rows of the author rows `x` along edges (src, dst). -/
def meanH (x : Fc S100000x128) (src dst : Ic S1000000) : Fc S20000x128 :=
  Host.divf
    (Host.scatterAdd scatter_S20000x128_S1000000x1_S1000000x128_1_0_0_1
      (broadcastInDim S20000x128 ![] bcast_S_S20000x128 (constant (F := Ideal) S_ .f32 0x00000000#32))
      (broadcastInDim S1000000x1 ![0] bcast_S1000000_S1000000x1_0 dst)
      (Host.gather gather_S100000x128_S1000000x1_S1000000x128_1_0_n_n_0_1_1128 x (wrapE 100000#32 src)))
    (broadcastInDim S20000x128 ![0, 1] bcast_S20000x1_S20000x128_0_1
      (broadcastInDim S20000x1 ![0] bcast_S20000_S20000x1_0
        (maximumf
          (Host.scatterAdd scatter_S20000_S1000000x1_S1000000_n_0_0_1
            (broadcastInDim S20000 ![] bcast_S_S20000 (constant (F := Ideal) S_ .f32 0x00000000#32))
            (broadcastInDim S1000000x1 ![0] bcast_S1000000_S1000000x1_0 dst)
            (broadcastInDim S1000000 ![] bcast_S_S1000000 (constant (F := Ideal) S_ .f32 0x3F800000#32)))
          (broadcastInDim S20000 ![] bcast_S_S20000 (constant (F := Ideal) S_ .f32 0x3F800000#32)))))

/-- Mean aggregation into the 100000 author rows of the hotel rows `x` along edges (src, dst). -/
def meanA (x : Fc S20000x128) (src dst : Ic S1000000) : Fc S100000x128 :=
  Host.divf
    (Host.scatterAdd scatter_S100000x128_S1000000x1_S1000000x128_1_0_0_1
      (broadcastInDim S100000x128 ![] bcast_S_S100000x128 (constant (F := Ideal) S_ .f32 0x00000000#32))
      (broadcastInDim S1000000x1 ![0] bcast_S1000000_S1000000x1_0 dst)
      (Host.gather gather_S20000x128_S1000000x1_S1000000x128_1_0_n_n_0_1_1128 x (wrapE 20000#32 src)))
    (broadcastInDim S100000x128 ![0, 1] bcast_S100000x1_S100000x128_0_1
      (broadcastInDim S100000x1 ![0] bcast_S100000_S100000x1_0
        (maximumf
          (Host.scatterAdd scatter_S100000_S1000000x1_S1000000_n_0_0_1
            (broadcastInDim S100000 ![] bcast_S_S100000 (constant (F := Ideal) S_ .f32 0x00000000#32))
            (broadcastInDim S1000000x1 ![0] bcast_S1000000_S1000000x1_0 dst)
            (broadcastInDim S1000000 ![] bcast_S_S1000000 (constant (F := Ideal) S_ .f32 0x3F800000#32)))
          (broadcastInDim S100000 ![] bcast_S_S100000 (constant (F := Ideal) S_ .f32 0x3F800000#32)))))

/-- The decoder's input: per labelled edge, its author row and its hotel row side by side. -/
def z1 (za : Fc S100000x128) (zh : Fc S20000x128) (r c : Ic S200000) : Fc S200000x256 :=
  concatenate S200000x256 1
    [⟨S200000x128, Host.gather gather_S100000x128_S200000x1_S200000x128_1_0_n_n_0_1_1128 za (wrapL 100000#32 r)⟩,
     ⟨S200000x128, Host.gather gather_S20000x128_S200000x1_S200000x128_1_0_n_n_0_1_1128 zh (wrapL 20000#32 c)⟩]
    concatenates_S200000x128_S200000x128_S200000x256_d1

/-- The dense layers, as a parameter: the two-sided layer on each node type, the rectifier on each, the decoder's
    rectified hidden layer and its output layer. -/
structure Layers where
  linH : Fc S20000x128 → Fc S20000x128 → Fc S128x128 → Fc S128 → Fc S128x128 → Fc S20000x128
  linA : Fc S100000x128 → Fc S100000x128 → Fc S128x128 → Fc S128 → Fc S128x128 → Fc S100000x128
  reluH : Fc S20000x128 → Fc S20000x128
  reluA : Fc S100000x128 → Fc S100000x128
  hid : Fc S200000x256 → Fc S256x128 → Fc S128 → Fc S200000x128
  out : Fc S200000x128 → Fc S128x1 → Fc S1 → Fc S200000x1

/-- The layers index by index on the extended reals. -/
def specL : Layers where
  linH := fun a x Wl b Wr => lin2 (R := 20000) (K := 128) (C := 128) a x Wl (row b) Wr
  linA := fun a x Wl b Wr => lin2 (R := 100000) (K := 128) (C := 128) a x Wl (row b) Wr
  reluH := fun v => relu (R := 20000) (C := 128) v
  reluA := fun v => relu (R := 100000) (C := 128) v
  hid := fun z W b => relu (lin1 (R := 200000) (K := 256) (C := 128) z W (row b))
  out := fun z W b => lin1 (R := 200000) (K := 128) (C := 1) z W (row b)

variable (L : Layers) (A : Args)

/-- First layer: the hotel rows, the author rows. -/
def hH : Fc S20000x128 := L.reluH (L.linH (meanH A.a0 A.a2 A.a3) A.a1 A.a8 A.a9 A.a10)
def hA : Fc S100000x128 := L.reluA (L.linA (meanA A.a1 A.a4 A.a5) A.a0 A.a11 A.a12 A.a13)
/-- Second layer (not rectified). -/
def zH : Fc S20000x128 := L.linH (meanH (hA L A) A.a2 A.a3) (hH L A) A.a14 A.a15 A.a16
def zA : Fc S100000x128 := L.linA (meanA (hH L A) A.a4 A.a5) (hA L A) A.a17 A.a18 A.a19
/-- The decoder: its input (the second result), its hidden rows (the third result), its prediction (the first result). -/
def Z1 : Fc S200000x256 := z1 (zA L A) (zH L A) A.a6 A.a7
def Z2 : Fc S200000x128 := L.hid (Z1 L A) A.a20 A.a21
def Pcol : Fc S200000x1 := L.out (Z2 L A) A.a22 A.a23
def P : Fc S200000 := shapeCast S200000 (Pcol L A) shapeCasts_S200000x1_S200000

end Cert.Spec

end
-- ==== Proof.Grid0.lean ====
/-
  GRID 0 OF THE IDEALIZED KERNEL PROGRAM: the first layer for the hotel nodes, out = relu(agg · Wl + b + x · Wr) over 20000 rows.

  The grid has 10 tiles of 2000 rows. Tile t reads rows 2000·t … 2000·t + 1999 of the aggregated table and of the
  node's own table, the two 128 × 128 weight matrices and the 1 × 128 bias row whole, and stores, at its row r and column
  q,   ∑ₖ agg(2000·t + r, k) · Wl(k, q) + b(0, q) + ∑ₖ x(2000·t + r, k) · Wr(k, q), rectified   — the narrowing of the operands to
  a shorter float format before the matrix unit is the identity on the extended reals. The tiles' row ranges
  partition the 20000 rows, so the output array ends holding that expression of the whole input arrays at every entry.
-/
import proofs.«102371_j7765300871785_1_alg».proof.Proof.Gen.KernelIdeal.Frame
import proofs.«102371_j7765300871785_1_alg».proof.Proof.LibSageLin
import Idealize.ShloMosaic.Lib.Pipeline.Value
import Idealize.ShloMosaic.Lib.ValueIdx

set_option maxRecDepth 16384

noncomputable section

namespace Cert.KernelIdeal.Grid0

open Cert.KernelIdeal Cert.KernelIdeal.Gen
open Idealize.ShloMosaic Idealize.ShloMosaic.TcCoe Idealize.ShloMosaic.ValueIdx Idealize.SL.Sem Idealize.SageLin
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The tile's product is a plain 2000 × 128 by 128 × 128 one. -/
theorem dot_plain : dot_S2000x128_S128x128_S2000x128_1_0_0_1_n_n = DotDims.plain 2000 128 128 :=
  Idealize.PlainDot.eq_plain _ rfl rfl rfl rfl rfl rfl

/-- What a tile stores, of the blocks it loads: the two-sided layer, rectified. -/
theorem pay (x0 x1 : Vec Ideal S2000x128 .f32) (x2 x4 : Vec Ideal S128x128 .f32) (x3 : Vec Ideal S1x128 .f32) :
    k0_pay1 x0 x1 x2 x4 x3 = relu (lin2 x0 x1 x2 x3 x4) := by
  unfold k0_pay1
  dsimp only
  simp only [shapeCast_self]
  rw [tile_lin1 _ dot_plain, tile_lin2 _ dot_plain, max_splat_relu]
  rfl

/-- The output array after the grid, as one function of the arrays the grid finds at its entry. -/
def G (c : Dev nD) : S20000x128.Idx → EReal :=
  relu (lin2 (V c main_v18 : S20000x128.Idx → EReal) (V c main_arg1 : S20000x128.Idx → EReal) (V c main_arg8 : S128x128.Idx → EReal)
    (V c main_v19 : S1x128.Idx → EReal) (V c main_arg10 : S128x128.Idx → EReal))

/-- The printed index maps over the grid: the two row tables and the output move with the tile number along the rows,
    the weights and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 10 :=
  (by decide +kernel : ∀ t : Fin grid0.N, _)

/-- Every tile number below 10 is some grid point's. -/
theorem idx_onto : ∀ q0 : Fin 10, ∃ t : Fin cfg0.N, t.val = q0.val :=
  (by decide +kernel : ∀ q0 : Fin 10, ∃ t : Fin grid0.N, t.val = q0.val)

/-- What tile `t` writes back is block `t` of `G`. -/
theorem flushed (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  rw [pay (iblk0 V c 0 t) (iblk0 V c 1 t) (iblk0 V c 2 t) (iblk0 V c 4 t) (iblk0 V c 3 t)]
  obtain ⟨e00, e01, e10, e11, e20, e21, e30, e31, e40, e41, e50, e51, ht⟩ := idx_facts t
  funext j
  obtain ⟨p, q, rfl⟩ : ∃ (p : Fin 2000) (q : Fin 128), j = ix2 p q := ⟨j 0, j 1, eq_ix2 j⟩
  have hP : t.val * 2000 + p.val < 20000 := by have := p.isLt; omega
  have hi : ((cfg0.win 5).blk t).view.emb (ix2 p q) = ix2 (⟨t.val * 2000 + p.val, hP⟩ : Fin 20000) q := by
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  show relu (lin2 (iblk0 V c 0 t) (iblk0 V c 1 t) (iblk0 V c 2 t) (iblk0 V c 3 t) (iblk0 V c 4 t)) (ix2 p q)
    = G V c (((cfg0.win 5).blk t).view.emb (ix2 p q))
  rw [hi]
  unfold G
  rw [relu_apply, relu_apply]
  refine congrArg (max · _) ?_
  refine lin2_congr (V c main_v18 : S20000x128.Idx → EReal) (V c main_arg1 : S20000x128.Idx → EReal) (V c main_arg8 : S128x128.Idx → EReal)
    (V c main_v19 : S1x128.Idx → EReal) (V c main_arg10 : S128x128.Idx → EReal)
    (iblk0 V c 0 t) (iblk0 V c 1 t) (iblk0 V c 2 t) (iblk0 V c 3 t) (iblk0 V c 4 t)
    p q ⟨t.val * 2000 + p.val, hP⟩ q ?_ ?_ ?_ ?_ ?_
  · intro k'
    show (V c main_v18 : S20000x128.Idx → EReal) (((cfg0.win 0).blk t).view.emb (ix2 p k')) = (V c main_v18 : S20000x128.Idx → EReal) (ix2 (⟨t.val * 2000 + p.val, hP⟩ : Fin 20000) k')
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k'.val = k'.val; omega
  · intro k'
    show (V c main_arg1 : S20000x128.Idx → EReal) (((cfg0.win 1).blk t).view.emb (ix2 p k')) = (V c main_arg1 : S20000x128.Idx → EReal) (ix2 (⟨t.val * 2000 + p.val, hP⟩ : Fin 20000) k')
    refine congrArg _ (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * k'.val = k'.val; omega
  · intro k'
    show (V c main_arg8 : S128x128.Idx → EReal) (((cfg0.win 2).blk t).view.emb (ix2 k' q)) = (V c main_arg8 : S128x128.Idx → EReal) (ix2 k' q)
    refine congrArg _ (funext fun a => Fin.ext ?_)
    match a with
    | ⟨0, _⟩ => show win0_2.index t (0 : Fin 2) * 128 + 1 * k'.val = k'.val; omega
    | ⟨1, _⟩ => show win0_2.index t (1 : Fin 2) * 128 + 1 * q.val = q.val; omega
  · intro k'
    show (V c main_arg10 : S128x128.Idx → EReal) (((cfg0.win 4).blk t).view.emb (ix2 k' q)) = (V c main_arg10 : S128x128.Idx → EReal) (ix2 k' q)
    refine congrArg _ (funext fun a => Fin.ext ?_)
    match a with
    | ⟨0, _⟩ => show win0_4.index t (0 : Fin 2) * 128 + 1 * k'.val = k'.val; omega
    | ⟨1, _⟩ => show win0_4.index t (1 : Fin 2) * 128 + 1 * q.val = q.val; omega
  · show (V c main_v19 : S1x128.Idx → EReal) (((cfg0.win 3).blk t).view.emb (ix2 (0 : Fin 1) q)) = (V c main_v19 : S1x128.Idx → EReal) (ix2 (0 : Fin 1) q)
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega

/-- An entry of the output array is in tile `t`'s block iff each coordinate is in the block's range. -/
theorem mem_blk (t : Fin cfg0.N) (i : S20000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v20).slice (win0_5.rect t)).set ↔ _
  rw [View.set_slice_whole, Rect.mem_set_unit]
  exact Iff.rfl

/-- Every entry of the output array is in the block of the tile its row falls in. -/
theorem cover (i : S20000x128.Idx) : ∃ t : Fin cfg0.N, (cfg0.win 5).flush t = true ∧ i ∈ ((cfg0.win 5).blk t).view.set := by
  have hi0 : (i 0).val < 20000 := (i 0).isLt
  have hi1 : (i 1).val < 128 := (i 1).isLt
  obtain ⟨t, ht⟩ := idx_onto ⟨(i 0).val / 2000, by omega⟩
  have ht' : t.val = (i 0).val / 2000 := ht
  obtain ⟨-, -, -, -, -, -, -, -, -, -, e50, e51, -⟩ := idx_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The output array after the whole grid is `G`. -/
theorem final (c : Dev nD) : (dat0 V c).arrAt 5 cfg0.N = G V c :=
  (dat0 V c).arrAt_eq_of_cover 5 (G V c) (fun t _ => flushed V c t) cover

/-- The same, with the arrays the grid finds named. -/
theorem final_of (c : Dev nD) {x0 x1 : S20000x128.Idx → EReal} {x2 x4 : S128x128.Idx → EReal} {x3 : S1x128.Idx → EReal}
    (h0 : V c main_v18 = x0) (h1 : V c main_arg1 = x1) (h2 : V c main_arg8 = x2) (h3 : V c main_v19 = x3)
    (h4 : V c main_arg10 = x4) :
    (dat0 V c).arrAt 5 cfg0.N = relu (lin2 x0 x1 x2 x3 x4) := by
  rw [final]
  unfold G
  rw [h0, h1, h2, h3, h4]

end Cert.KernelIdeal.Grid0

end
-- ==== Proof.Grid1.lean ====
/-
  GRID 1 OF THE IDEALIZED KERNEL PROGRAM: the first layer for the author nodes, out = relu(agg · Wl + b + x · Wr) over 100000 rows.

  The grid has 50 tiles of 2000 rows. Tile t reads rows 2000·t … 2000·t + 1999 of the aggregated table and of the
  node's own table, the two 128 × 128 weight matrices and the 1 × 128 bias row whole, and stores, at its row r and column
  q,   ∑ₖ agg(2000·t + r, k) · Wl(k, q) + b(0, q) + ∑ₖ x(2000·t + r, k) · Wr(k, q), rectified   — the narrowing of the operands to
  a shorter float format before the matrix unit is the identity on the extended reals. The tiles' row ranges
  partition the 100000 rows, so the output array ends holding that expression of the whole input arrays at every entry.
-/
import proofs.«102371_j7765300871785_1_alg».proof.Proof.Gen.KernelIdeal.Frame
import proofs.«102371_j7765300871785_1_alg».proof.Proof.LibSageLin
import Idealize.ShloMosaic.Lib.Pipeline.Value
import Idealize.ShloMosaic.Lib.ValueIdx

set_option maxRecDepth 16384

noncomputable section

namespace Cert.KernelIdeal.Grid1

open Cert.KernelIdeal Cert.KernelIdeal.Gen
open Idealize.ShloMosaic Idealize.ShloMosaic.TcCoe Idealize.ShloMosaic.ValueIdx Idealize.SL.Sem Idealize.SageLin
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The tile's product is a plain 2000 × 128 by 128 × 128 one. -/
theorem dot_plain : dot_S2000x128_S128x128_S2000x128_1_0_0_1_n_n = DotDims.plain 2000 128 128 :=
  Idealize.PlainDot.eq_plain _ rfl rfl rfl rfl rfl rfl

/-- What a tile stores, of the blocks it loads: the two-sided layer, rectified. -/
theorem pay (x0 x1 : Vec Ideal S2000x128 .f32) (x2 x4 : Vec Ideal S128x128 .f32) (x3 : Vec Ideal S1x128 .f32) :
    k1_pay1 x0 x1 x2 x4 x3 = relu (lin2 x0 x1 x2 x3 x4) := by
  unfold k1_pay1
  dsimp only
  simp only [shapeCast_self]
  rw [tile_lin1 _ dot_plain, tile_lin2 _ dot_plain, max_splat_relu]
  rfl

/-- The output array after the grid, as one function of the arrays the grid finds at its entry. -/
def G (c : Dev nD) : S100000x128.Idx → EReal :=
  relu (lin2 (V c main_v39 : S100000x128.Idx → EReal) (V c main_arg0 : S100000x128.Idx → EReal) (V c main_arg11 : S128x128.Idx → EReal)
    (V c main_v40 : S1x128.Idx → EReal) (V c main_arg13 : S128x128.Idx → EReal))

/-- The printed index maps over the grid: the two row tables and the output move with the tile number along the rows,
    the weights and the bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 50 :=
  (by decide +kernel : ∀ t : Fin grid1.N, _)

/-- Every tile number below 50 is some grid point's. -/
theorem idx_onto : ∀ q0 : Fin 50, ∃ t : Fin cfg1.N, t.val = q0.val :=
  (by decide +kernel : ∀ q0 : Fin 50, ∃ t : Fin grid1.N, t.val = q0.val)

/-- What tile `t` writes back is block `t` of `G`. -/
theorem flushed (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  rw [pay (iblk1 V c 0 t) (iblk1 V c 1 t) (iblk1 V c 2 t) (iblk1 V c 4 t) (iblk1 V c 3 t)]
  obtain ⟨e00, e01, e10, e11, e20, e21, e30, e31, e40, e41, e50, e51, ht⟩ := idx_facts t
  funext j
  obtain ⟨p, q, rfl⟩ : ∃ (p : Fin 2000) (q : Fin 128), j = ix2 p q := ⟨j 0, j 1, eq_ix2 j⟩
  have hP : t.val * 2000 + p.val < 100000 := by have := p.isLt; omega
  have hi : ((cfg1.win 5).blk t).view.emb (ix2 p q) = ix2 (⟨t.val * 2000 + p.val, hP⟩ : Fin 100000) q := by
    funext a; apply Fin.ext
    match a with
    | ⟨0, _⟩ => show win1_5.index t (0 : Fin 2) * 2000 + 1 * p.val = t.val * 2000 + p.val; omega
    | ⟨1, _⟩ => show win1_5.index t (1 : Fin 2) * 128 + 1 * q.val = q.val; omega
  show relu (lin2 (iblk1 V c 0 t) (iblk1 V c 1 t) (iblk1 V c 2 t) (iblk1 V c 3 t) (iblk1 V c 4 t)) (ix2 p q)
    = G V c (((cfg1.win 5).blk t).view.emb (ix2 p q))
  rw [hi]
  unfold G
  rw [relu_apply, relu_apply]
  refine congrArg (max · _) ?_
  refine lin2_congr (V c main_v39 : S100000x128.Idx → EReal) (V c main_arg0 : S100000x128.Idx → EReal) (V c main_arg11 : S128x128.Idx → EReal)
    (V c main_v40 : S1x128.Idx → EReal) (V c main_arg13 : S128x128.Idx → EReal)
    (iblk1 V c 0 t) (iblk1 V c 1 t) (iblk1 V c 2 t) (iblk1 V c 3 t) (iblk1 V c 4 t)
    p q ⟨t.val * 2000 + p.val, hP⟩ q ?_ ?_ ?_ ?_ ?_
  · intro k'
    show (V c main_v39 : S100000x128.Idx → EReal) (((cfg1.win 0).blk t).view.emb (ix2 p k')) = (V c main_v39 : S100000x128.Idx → EReal) (ix2 (⟨t.val * 2000 + p.val, hP⟩ : Fin 100000) k')
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k'.val = k'.val; omega
  · intro k'
    show (V c main_arg0 : S100000x128.Idx → EReal) (((cfg1.win 1).blk t).view.emb (ix2 p k')) = (V c main_arg0 : S100000x128.Idx → EReal) (ix2 (⟨t.val * 2000 + p.val, hP⟩ : Fin 100000) k')
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * k'.val = k'.val; omega
  · intro k'
    show (V c main_arg11 : S128x128.Idx → EReal) (((cfg1.win 2).blk t).view.emb (ix2 k' q)) = (V c main_arg11 : S128x128.Idx → EReal) (ix2 k' q)
    refine congrArg _ (funext fun a => Fin.ext ?_)
    match a with
    | ⟨0, _⟩ => show win1_2.index t (0 : Fin 2) * 128 + 1 * k'.val = k'.val; omega
    | ⟨1, _⟩ => show win1_2.index t (1 : Fin 2) * 128 + 1 * q.val = q.val; omega
  · intro k'
    show (V c main_arg13 : S128x128.Idx → EReal) (((cfg1.win 4).blk t).view.emb (ix2 k' q)) = (V c main_arg13 : S128x128.Idx → EReal) (ix2 k' q)
    refine congrArg _ (funext fun a => Fin.ext ?_)
    match a with
    | ⟨0, _⟩ => show win1_4.index t (0 : Fin 2) * 128 + 1 * k'.val = k'.val; omega
    | ⟨1, _⟩ => show win1_4.index t (1 : Fin 2) * 128 + 1 * q.val = q.val; omega
  · show (V c main_v40 : S1x128.Idx → EReal) (((cfg1.win 3).blk t).view.emb (ix2 (0 : Fin 1) q)) = (V c main_v40 : S1x128.Idx → EReal) (ix2 (0 : Fin 1) q)
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega

/-- An entry of the output array is in tile `t`'s block iff each coordinate is in the block's range. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v41).slice (win1_5.rect t)).set ↔ _
  rw [View.set_slice_whole, Rect.mem_set_unit]
  exact Iff.rfl

/-- Every entry of the output array is in the block of the tile its row falls in. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 2000, by omega⟩
  have ht' : t.val = (i 0).val / 2000 := ht
  obtain ⟨-, -, -, -, -, -, -, -, -, -, e50, e51, -⟩ := idx_facts t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after the whole grid is `G`. -/
theorem final (c : Dev nD) : (dat1 V c).arrAt 5 cfg1.N = G V c :=
  (dat1 V c).arrAt_eq_of_cover 5 (G V c) (fun t _ => flushed V c t) cover

/-- The same, with the arrays the grid finds named. -/
theorem final_of (c : Dev nD) {x0 x1 : S100000x128.Idx → EReal} {x2 x4 : S128x128.Idx → EReal} {x3 : S1x128.Idx → EReal}
    (h0 : V c main_v39 = x0) (h1 : V c main_arg0 = x1) (h2 : V c main_arg11 = x2) (h3 : V c main_v40 = x3)
    (h4 : V c main_arg13 = x4) :
    (dat1 V c).arrAt 5 cfg1.N = relu (lin2 x0 x1 x2 x3 x4) := by
  rw [final]
  unfold G
  rw [h0, h1, h2, h3, h4]

end Cert.KernelIdeal.Grid1

end
-- ==== Proof.Grid2.lean ====
/-
  GRID 2 OF THE IDEALIZED KERNEL PROGRAM: the second layer for the hotel nodes, out = agg · Wl + b + x · Wr over 20000 rows.

  The grid has 10 tiles of 2000 rows. Tile t reads rows 2000·t … 2000·t + 1999 of the aggregated table and of the
  node's own table, the two 128 × 128 weight matrices and the 1 × 128 bias row whole, and stores, at its row r and column
  q,   ∑ₖ agg(2000·t + r, k) · Wl(k, q) + b(0, q) + ∑ₖ x(2000·t + r, k) · Wr(k, q)   — the narrowing of the operands to
  a shorter float format before the matrix unit is the identity on the extended reals. The tiles' row ranges
  partition the 20000 rows, so the output array ends holding that expression of the whole input arrays at every entry.
-/
import proofs.«102371_j7765300871785_1_alg».proof.Proof.Gen.KernelIdeal.Frame
import proofs.«102371_j7765300871785_1_alg».proof.Proof.LibSageLin
import Idealize.ShloMosaic.Lib.Pipeline.Value
import Idealize.ShloMosaic.Lib.ValueIdx

set_option maxRecDepth 16384

noncomputable section

namespace Cert.KernelIdeal.Grid2

open Cert.KernelIdeal Cert.KernelIdeal.Gen
open Idealize.ShloMosaic Idealize.ShloMosaic.TcCoe Idealize.ShloMosaic.ValueIdx Idealize.SL.Sem Idealize.SageLin
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The tile's product is a plain 2000 × 128 by 128 × 128 one. -/
theorem dot_plain : dot_S2000x128_S128x128_S2000x128_1_0_0_1_n_n = DotDims.plain 2000 128 128 :=
  Idealize.PlainDot.eq_plain _ rfl rfl rfl rfl rfl rfl

/-- What a tile stores, of the blocks it loads: the two-sided layer. -/
theorem pay (x0 x1 : Vec Ideal S2000x128 .f32) (x2 x4 : Vec Ideal S128x128 .f32) (x3 : Vec Ideal S1x128 .f32) :
    k2_pay1 x0 x1 x2 x4 x3 = (lin2 x0 x1 x2 x3 x4) := by
  unfold k2_pay1
  dsimp only
  simp only [shapeCast_self]
  rw [tile_lin1 _ dot_plain, tile_lin2 _ dot_plain]
  rfl

/-- The output array after the grid, as one function of the arrays the grid finds at its entry. -/
def G (c : Dev nD) : S20000x128.Idx → EReal :=
  (lin2 (V c main_v60 : S20000x128.Idx → EReal) (V c main_v20 : S20000x128.Idx → EReal) (V c main_arg14 : S128x128.Idx → EReal)
    (V c main_v61 : S1x128.Idx → EReal) (V c main_arg16 : S128x128.Idx → EReal))

/-- The printed index maps over the grid: the two row tables and the output move with the tile number along the rows,
    the weights and the bias stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 10 :=
  (by decide +kernel : ∀ t : Fin grid2.N, _)

/-- Every tile number below 10 is some grid point's. -/
theorem idx_onto : ∀ q0 : Fin 10, ∃ t : Fin cfg2.N, t.val = q0.val :=
  (by decide +kernel : ∀ q0 : Fin 10, ∃ t : Fin grid2.N, t.val = q0.val)

/-- What tile `t` writes back is block `t` of `G`. -/
theorem flushed (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S1x128) hz]
  rw [pay (iblk2 V c 0 t) (iblk2 V c 1 t) (iblk2 V c 2 t) (iblk2 V c 4 t) (iblk2 V c 3 t)]
  obtain ⟨e00, e01, e10, e11, e20, e21, e30, e31, e40, e41, e50, e51, ht⟩ := idx_facts t
  funext j
  obtain ⟨p, q, rfl⟩ : ∃ (p : Fin 2000) (q : Fin 128), j = ix2 p q := ⟨j 0, j 1, eq_ix2 j⟩
  have hP : t.val * 2000 + p.val < 20000 := by have := p.isLt; omega
  have hi : ((cfg2.win 5).blk t).view.emb (ix2 p q) = ix2 (⟨t.val * 2000 + p.val, hP⟩ : Fin 20000) q := by
    funext a; apply Fin.ext
    match a with
    | ⟨0, _⟩ => show win2_5.index t (0 : Fin 2) * 2000 + 1 * p.val = t.val * 2000 + p.val; omega
    | ⟨1, _⟩ => show win2_5.index t (1 : Fin 2) * 128 + 1 * q.val = q.val; omega
  show (lin2 (iblk2 V c 0 t) (iblk2 V c 1 t) (iblk2 V c 2 t) (iblk2 V c 3 t) (iblk2 V c 4 t)) (ix2 p q)
    = G V c (((cfg2.win 5).blk t).view.emb (ix2 p q))
  rw [hi]
  unfold G

  refine lin2_congr (V c main_v60 : S20000x128.Idx → EReal) (V c main_v20 : S20000x128.Idx → EReal) (V c main_arg14 : S128x128.Idx → EReal)
    (V c main_v61 : S1x128.Idx → EReal) (V c main_arg16 : S128x128.Idx → EReal)
    (iblk2 V c 0 t) (iblk2 V c 1 t) (iblk2 V c 2 t) (iblk2 V c 3 t) (iblk2 V c 4 t)
    p q ⟨t.val * 2000 + p.val, hP⟩ q ?_ ?_ ?_ ?_ ?_
  · intro k'
    show (V c main_v60 : S20000x128.Idx → EReal) (((cfg2.win 0).blk t).view.emb (ix2 p k')) = (V c main_v60 : S20000x128.Idx → EReal) (ix2 (⟨t.val * 2000 + p.val, hP⟩ : Fin 20000) k')
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k'.val = k'.val; omega
  · intro k'
    show (V c main_v20 : S20000x128.Idx → EReal) (((cfg2.win 1).blk t).view.emb (ix2 p k')) = (V c main_v20 : S20000x128.Idx → EReal) (ix2 (⟨t.val * 2000 + p.val, hP⟩ : Fin 20000) k')
    refine congrArg _ (funext fun a => Fin.ext ?_)
    match a with
    | ⟨0, _⟩ => show win2_1.index t (0 : Fin 2) * 2000 + 1 * p.val = t.val * 2000 + p.val; omega
    | ⟨1, _⟩ => show win2_1.index t (1 : Fin 2) * 128 + 1 * k'.val = k'.val; omega
  · intro k'
    show (V c main_arg14 : S128x128.Idx → EReal) (((cfg2.win 2).blk t).view.emb (ix2 k' q)) = (V c main_arg14 : S128x128.Idx → EReal) (ix2 k' q)
    refine congrArg _ (funext fun a => Fin.ext ?_)
    match a with
    | ⟨0, _⟩ => show win2_2.index t (0 : Fin 2) * 128 + 1 * k'.val = k'.val; omega
    | ⟨1, _⟩ => show win2_2.index t (1 : Fin 2) * 128 + 1 * q.val = q.val; omega
  · intro k'
    show (V c main_arg16 : S128x128.Idx → EReal) (((cfg2.win 4).blk t).view.emb (ix2 k' q)) = (V c main_arg16 : S128x128.Idx → EReal) (ix2 k' q)
    refine congrArg _ (funext fun a => Fin.ext ?_)
    match a with
    | ⟨0, _⟩ => show win2_4.index t (0 : Fin 2) * 128 + 1 * k'.val = k'.val; omega
    | ⟨1, _⟩ => show win2_4.index t (1 : Fin 2) * 128 + 1 * q.val = q.val; omega
  · show (V c main_v61 : S1x128.Idx → EReal) (((cfg2.win 3).blk t).view.emb (ix2 (0 : Fin 1) q)) = (V c main_v61 : S1x128.Idx → EReal) (ix2 (0 : Fin 1) q)
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega

/-- An entry of the output array is in tile `t`'s block iff each coordinate is in the block's range. -/
theorem mem_blk (t : Fin cfg2.N) (i : S20000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v62).slice (win2_5.rect t)).set ↔ _
  rw [View.set_slice_whole, Rect.mem_set_unit]
  exact Iff.rfl

/-- Every entry of the output array is in the block of the tile its row falls in. -/
theorem cover (i : S20000x128.Idx) : ∃ t : Fin cfg2.N, (cfg2.win 5).flush t = true ∧ i ∈ ((cfg2.win 5).blk t).view.set := by
  have hi0 : (i 0).val < 20000 := (i 0).isLt
  have hi1 : (i 1).val < 128 := (i 1).isLt
  obtain ⟨t, ht⟩ := idx_onto ⟨(i 0).val / 2000, by omega⟩
  have ht' : t.val = (i 0).val / 2000 := ht
  obtain ⟨-, -, -, -, -, -, -, -, -, -, e50, e51, -⟩ := idx_facts t
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- The output array after the whole grid is `G`. -/
theorem final (c : Dev nD) : (dat2 V c).arrAt 5 cfg2.N = G V c :=
  (dat2 V c).arrAt_eq_of_cover 5 (G V c) (fun t _ => flushed V c t) cover

/-- The same, with the arrays the grid finds named. -/
theorem final_of (c : Dev nD) {x0 x1 : S20000x128.Idx → EReal} {x2 x4 : S128x128.Idx → EReal} {x3 : S1x128.Idx → EReal}
    (h0 : V c main_v60 = x0) (h1 : V c main_v20 = x1) (h2 : V c main_arg14 = x2) (h3 : V c main_v61 = x3)
    (h4 : V c main_arg16 = x4) :
    (dat2 V c).arrAt 5 cfg2.N = (lin2 x0 x1 x2 x3 x4) := by
  rw [final]
  unfold G
  rw [h0, h1, h2, h3, h4]

end Cert.KernelIdeal.Grid2

end
-- ==== Proof.Grid3.lean ====
/-
  GRID 3 OF THE IDEALIZED KERNEL PROGRAM: the second layer for the author nodes, out = agg · Wl + b + x · Wr over 100000 rows.

  The grid has 50 tiles of 2000 rows. Tile t reads rows 2000·t … 2000·t + 1999 of the aggregated table and of the
  node's own table, the two 128 × 128 weight matrices and the 1 × 128 bias row whole, and stores, at its row r and column
  q,   ∑ₖ agg(2000·t + r, k) · Wl(k, q) + b(0, q) + ∑ₖ x(2000·t + r, k) · Wr(k, q)   — the narrowing of the operands to
  a shorter float format before the matrix unit is the identity on the extended reals. The tiles' row ranges
  partition the 100000 rows, so the output array ends holding that expression of the whole input arrays at every entry.
-/
import proofs.«102371_j7765300871785_1_alg».proof.Proof.Gen.KernelIdeal.Frame
import proofs.«102371_j7765300871785_1_alg».proof.Proof.LibSageLin
import Idealize.ShloMosaic.Lib.Pipeline.Value
import Idealize.ShloMosaic.Lib.ValueIdx

set_option maxRecDepth 16384

noncomputable section

namespace Cert.KernelIdeal.Grid3

open Cert.KernelIdeal Cert.KernelIdeal.Gen
open Idealize.ShloMosaic Idealize.ShloMosaic.TcCoe Idealize.ShloMosaic.ValueIdx Idealize.SL.Sem Idealize.SageLin
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The tile's product is a plain 2000 × 128 by 128 × 128 one. -/
theorem dot_plain : dot_S2000x128_S128x128_S2000x128_1_0_0_1_n_n = DotDims.plain 2000 128 128 :=
  Idealize.PlainDot.eq_plain _ rfl rfl rfl rfl rfl rfl

/-- What a tile stores, of the blocks it loads: the two-sided layer. -/
theorem pay (x0 x1 : Vec Ideal S2000x128 .f32) (x2 x4 : Vec Ideal S128x128 .f32) (x3 : Vec Ideal S1x128 .f32) :
    k3_pay1 x0 x1 x2 x4 x3 = (lin2 x0 x1 x2 x3 x4) := by
  unfold k3_pay1
  dsimp only
  simp only [shapeCast_self]
  rw [tile_lin1 _ dot_plain, tile_lin2 _ dot_plain]
  rfl

/-- The output array after the grid, as one function of the arrays the grid finds at its entry. -/
def G (c : Dev nD) : S100000x128.Idx → EReal :=
  (lin2 (V c main_v81 : S100000x128.Idx → EReal) (V c main_v41 : S100000x128.Idx → EReal) (V c main_arg17 : S128x128.Idx → EReal)
    (V c main_v82 : S1x128.Idx → EReal) (V c main_arg19 : S128x128.Idx → EReal))

/-- The printed index maps over the grid: the two row tables and the output move with the tile number along the rows,
    the weights and the bias stay at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 ∧ t.val < 50 :=
  (by decide +kernel : ∀ t : Fin grid3.N, _)

/-- Every tile number below 50 is some grid point's. -/
theorem idx_onto : ∀ q0 : Fin 50, ∃ t : Fin cfg3.N, t.val = q0.val :=
  (by decide +kernel : ∀ q0 : Fin 50, ∃ t : Fin grid3.N, t.val = q0.val)

/-- What tile `t` writes back is block `t` of `G`. -/
theorem flushed (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S2000x128) hz, View.ld_unit_zero (S := S128x128) hz, View.ld_unit_zero (S := S1x128) hz]
  rw [pay (iblk3 V c 0 t) (iblk3 V c 1 t) (iblk3 V c 2 t) (iblk3 V c 4 t) (iblk3 V c 3 t)]
  obtain ⟨e00, e01, e10, e11, e20, e21, e30, e31, e40, e41, e50, e51, ht⟩ := idx_facts t
  funext j
  obtain ⟨p, q, rfl⟩ : ∃ (p : Fin 2000) (q : Fin 128), j = ix2 p q := ⟨j 0, j 1, eq_ix2 j⟩
  have hP : t.val * 2000 + p.val < 100000 := by have := p.isLt; omega
  have hi : ((cfg3.win 5).blk t).view.emb (ix2 p q) = ix2 (⟨t.val * 2000 + p.val, hP⟩ : Fin 100000) q := by
    funext a; apply Fin.ext
    match a with
    | ⟨0, _⟩ => show win3_5.index t (0 : Fin 2) * 2000 + 1 * p.val = t.val * 2000 + p.val; omega
    | ⟨1, _⟩ => show win3_5.index t (1 : Fin 2) * 128 + 1 * q.val = q.val; omega
  show (lin2 (iblk3 V c 0 t) (iblk3 V c 1 t) (iblk3 V c 2 t) (iblk3 V c 3 t) (iblk3 V c 4 t)) (ix2 p q)
    = G V c (((cfg3.win 5).blk t).view.emb (ix2 p q))
  rw [hi]
  unfold G

  refine lin2_congr (V c main_v81 : S100000x128.Idx → EReal) (V c main_v41 : S100000x128.Idx → EReal) (V c main_arg17 : S128x128.Idx → EReal)
    (V c main_v82 : S1x128.Idx → EReal) (V c main_arg19 : S128x128.Idx → EReal)
    (iblk3 V c 0 t) (iblk3 V c 1 t) (iblk3 V c 2 t) (iblk3 V c 3 t) (iblk3 V c 4 t)
    p q ⟨t.val * 2000 + p.val, hP⟩ q ?_ ?_ ?_ ?_ ?_
  · intro k'
    show (V c main_v81 : S100000x128.Idx → EReal) (((cfg3.win 0).blk t).view.emb (ix2 p k')) = (V c main_v81 : S100000x128.Idx → EReal) (ix2 (⟨t.val * 2000 + p.val, hP⟩ : Fin 100000) k')
    refine congrArg _ (funext fun a => Fin.ext ?_)
    match a with
    | ⟨0, _⟩ => show win3_0.index t (0 : Fin 2) * 2000 + 1 * p.val = t.val * 2000 + p.val; omega
    | ⟨1, _⟩ => show win3_0.index t (1 : Fin 2) * 128 + 1 * k'.val = k'.val; omega
  · intro k'
    show (V c main_v41 : S100000x128.Idx → EReal) (((cfg3.win 1).blk t).view.emb (ix2 p k')) = (V c main_v41 : S100000x128.Idx → EReal) (ix2 (⟨t.val * 2000 + p.val, hP⟩ : Fin 100000) k')
    refine congrArg _ (funext fun a => Fin.ext ?_)
    match a with
    | ⟨0, _⟩ => show win3_1.index t (0 : Fin 2) * 2000 + 1 * p.val = t.val * 2000 + p.val; omega
    | ⟨1, _⟩ => show win3_1.index t (1 : Fin 2) * 128 + 1 * k'.val = k'.val; omega
  · intro k'
    show (V c main_arg17 : S128x128.Idx → EReal) (((cfg3.win 2).blk t).view.emb (ix2 k' q)) = (V c main_arg17 : S128x128.Idx → EReal) (ix2 k' q)
    refine congrArg _ (funext fun a => Fin.ext ?_)
    match a with
    | ⟨0, _⟩ => show win3_2.index t (0 : Fin 2) * 128 + 1 * k'.val = k'.val; omega
    | ⟨1, _⟩ => show win3_2.index t (1 : Fin 2) * 128 + 1 * q.val = q.val; omega
  · intro k'
    show (V c main_arg19 : S128x128.Idx → EReal) (((cfg3.win 4).blk t).view.emb (ix2 k' q)) = (V c main_arg19 : S128x128.Idx → EReal) (ix2 k' q)
    refine congrArg _ (funext fun a => Fin.ext ?_)
    match a with
    | ⟨0, _⟩ => show win3_4.index t (0 : Fin 2) * 128 + 1 * k'.val = k'.val; omega
    | ⟨1, _⟩ => show win3_4.index t (1 : Fin 2) * 128 + 1 * q.val = q.val; omega
  · show (V c main_v82 : S1x128.Idx → EReal) (((cfg3.win 3).blk t).view.emb (ix2 (0 : Fin 1) q)) = (V c main_v82 : S1x128.Idx → EReal) (ix2 (0 : Fin 1) q)
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * q.val = q.val; omega

/-- An entry of the output array is in tile `t`'s block iff each coordinate is in the block's range. -/
theorem mem_blk (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v83).slice (win3_5.rect t)).set ↔ _
  rw [View.set_slice_whole, Rect.mem_set_unit]
  exact Iff.rfl

/-- Every entry of the output array is in the block of the tile its row falls in. -/
theorem cover (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ := idx_onto ⟨(i 0).val / 2000, by omega⟩
  have ht' : t.val = (i 0).val / 2000 := ht
  obtain ⟨-, -, -, -, -, -, -, -, -, -, e50, e51, -⟩ := idx_facts t
  refine ⟨t, flush3_5 t, ?_⟩
  rw [mem_blk]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- The output array after the whole grid is `G`. -/
theorem final (c : Dev nD) : (dat3 V c).arrAt 5 cfg3.N = G V c :=
  (dat3 V c).arrAt_eq_of_cover 5 (G V c) (fun t _ => flushed V c t) cover

/-- The same, with the arrays the grid finds named. -/
theorem final_of (c : Dev nD) {x0 x1 : S100000x128.Idx → EReal} {x2 x4 : S128x128.Idx → EReal} {x3 : S1x128.Idx → EReal}
    (h0 : V c main_v81 = x0) (h1 : V c main_v41 = x1) (h2 : V c main_arg17 = x2) (h3 : V c main_v82 = x3)
    (h4 : V c main_arg19 = x4) :
    (dat3 V c).arrAt 5 cfg3.N = (lin2 x0 x1 x2 x3 x4) := by
  rw [final]
  unfold G
  rw [h0, h1, h2, h3, h4]

end Cert.KernelIdeal.Grid3

end
-- ==== Proof.Grid4.lean ====
/-
  GRID 4 OF THE IDEALIZED KERNEL PROGRAM: the edge decoder, z2 = relu(z1 · W1 + b1) and pred = z2 · W2 + b2 over 200000 rows.

  The grid has 100 tiles of 2000 rows. Tile t reads rows 2000·t … 2000·t + 1999 of the 256-wide table z1 and the weights
  and bias rows whole; it stores the rectified hidden rows, and — from that same stored value, whose narrowing to a
  shorter float format is the identity on the extended reals — the one-column product with W2 plus the 1 × 1 bias. The
  tiles' row ranges partition the 200000 rows, so each output array ends holding its expression of the whole input
  arrays at every entry.
-/
import proofs.«102371_j7765300871785_1_alg».proof.Proof.Gen.KernelIdeal.Frame
import proofs.«102371_j7765300871785_1_alg».proof.Proof.LibSageLin
import Idealize.ShloMosaic.Lib.Pipeline.Value
import Idealize.ShloMosaic.Lib.ValueIdx

set_option maxRecDepth 16384

noncomputable section

namespace Cert.KernelIdeal.Grid4

open Cert.KernelIdeal Cert.KernelIdeal.Gen
open Idealize.ShloMosaic Idealize.ShloMosaic.TcCoe Idealize.ShloMosaic.ValueIdx Idealize.SL.Sem Idealize.SageLin
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The hidden layer's product is a plain 2000 × 256 by 256 × 128 one, the output layer's a plain 2000 × 128 by 128 × 1. -/
theorem dot1_plain : dot_S2000x256_S256x128_S2000x128_1_0_0_1_n_n = DotDims.plain 2000 256 128 :=
  Idealize.PlainDot.eq_plain _ rfl rfl rfl rfl rfl rfl
theorem dot2_plain : dot_S2000x128_S128x1_S2000x1_1_0_0_1_n_n = DotDims.plain 2000 128 1 :=
  Idealize.PlainDot.eq_plain _ rfl rfl rfl rfl rfl rfl

/-- The hidden rows a tile stores. -/
theorem pay1 (x0 : Vec Ideal S2000x256 .f32) (x1 : Vec Ideal S256x128 .f32) (x2 : Vec Ideal S1x128 .f32) :
    k4_pay1 x0 x1 x2 = relu (lin1 x0 x1 x2) := by
  unfold k4_pay1
  dsimp only
  simp only [shapeCast_self]
  rw [tile_lin1 _ dot1_plain, max_splat_relu]
  rfl

/-- The predictions a tile stores: the output layer of the hidden rows it has just stored. -/
theorem pay2 (x0 : Vec Ideal S2000x256 .f32) (x1 : Vec Ideal S256x128 .f32) (x2 : Vec Ideal S1x128 .f32)
    (x3 : Vec Ideal S128x1 .f32) (x4 : Vec Ideal S1x1 .f32) :
    k4_pay2 x0 x1 x2 x3 x4 = lin1 (relu (lin1 x0 x1 x2)) x3 x4 := by
  unfold k4_pay2
  dsimp only
  rw [pay1 x0 x1 x2]
  simp only [shapeCast_self]
  rw [tile_lin1 _ dot2_plain]
  rfl

/-- The hidden array after the grid, as one function of the arrays the grid finds at its entry. -/
def Gz (c : Dev nD) : S200000x128.Idx → EReal :=
  relu (lin1 (V c main_v98 : S200000x256.Idx → EReal) (V c main_arg20 : S256x128.Idx → EReal) (V c main_v99 : S1x128.Idx → EReal))

/-- The prediction column after the grid. -/
def Gp (c : Dev nD) : S200000x1.Idx → EReal :=
  lin1 (Gz V c) (V c main_arg22 : S128x1.Idx → EReal) (V c main_v100 : S1x1.Idx → EReal)

/-- The printed index maps over the grid: the table z1 and the two outputs move with the tile number along the rows,
    the weights and the bias rows stay at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 ∧ t.val < 100 :=
  (by decide +kernel : ∀ t : Fin grid4.N, _)

/-- Every tile number below 100 is some grid point's. -/
theorem idx_onto : ∀ q0 : Fin 100, ∃ t : Fin cfg4.N, t.val = q0.val :=
  (by decide +kernel : ∀ q0 : Fin 100, ∃ t : Fin grid4.N, t.val = q0.val)

/-- A tile's hidden rows are the hidden array's rows at the tile's offset. -/
theorem z2_tile (c : Dev nD) (t : Fin cfg4.N) (p : Fin 2000) (hP : t.val * 2000 + p.val < 200000) (q : Fin 128) :
    relu (lin1 (iblk4 V c 0 t) (iblk4 V c 1 t) (iblk4 V c 2 t)) (ix2 p q)
      = Gz V c (ix2 (⟨t.val * 2000 + p.val, hP⟩ : Fin 200000) q) := by
  obtain ⟨e00, e01, e10, e11, e20, e21, e30, e31, e40, e41, e50, e51, e60, e61, ht⟩ := idx_facts t
  unfold Gz
  rw [relu_apply, relu_apply]
  refine congrArg (max · _) ?_
  refine lin1_congr (V c main_v98 : S200000x256.Idx → EReal) (V c main_arg20 : S256x128.Idx → EReal) (V c main_v99 : S1x128.Idx → EReal)
    (iblk4 V c 0 t) (iblk4 V c 1 t) (iblk4 V c 2 t) p q ⟨t.val * 2000 + p.val, hP⟩ q ?_ ?_ ?_
  · intro k'
    show (V c main_v98 : S200000x256.Idx → EReal) (((cfg4.win 0).blk t).view.emb (ix2 p k')) = (V c main_v98 : S200000x256.Idx → EReal) (ix2 (⟨t.val * 2000 + p.val, hP⟩ : Fin 200000) k')
    refine congrArg _ (funext fun a => Fin.ext ?_)
    match a with
    | ⟨0, _⟩ => show win4_0.index t (0 : Fin 2) * 2000 + 1 * p.val = t.val * 2000 + p.val; omega
    | ⟨1, _⟩ => show win4_0.index t (1 : Fin 2) * 256 + 1 * k'.val = k'.val; omega
  · intro k'
    show (V c main_arg20 : S256x128.Idx → EReal) (((cfg4.win 1).blk t).view.emb (ix2 k' q)) = (V c main_arg20 : S256x128.Idx → EReal) (ix2 k' q)
    refine congrArg _ (funext fun a => Fin.ext ?_)
    match a with
    | ⟨0, _⟩ => show win4_1.index t (0 : Fin 2) * 256 + 1 * k'.val = k'.val; omega
    | ⟨1, _⟩ => show win4_1.index t (1 : Fin 2) * 128 + 1 * q.val = q.val; omega
  · show (V c main_v99 : S1x128.Idx → EReal) (((cfg4.win 2).blk t).view.emb (ix2 (0 : Fin 1) q)) = (V c main_v99 : S1x128.Idx → EReal) (ix2 (0 : Fin 1) q)
    refine congrArg _ (funext fun a => Fin.ext ?_)
    match a with
    | ⟨0, _⟩ => show win4_2.index t (0 : Fin 2) * 1 + 1 * 0 = 0; omega
    | ⟨1, _⟩ => show win4_2.index t (1 : Fin 2) * 128 + 1 * q.val = q.val; omega

/-- What tile `t` writes back to the hidden array is block `t` of `Gz`. -/
theorem flushed5 (c : Dev nD) (t : Fin cfg4.N) :
    (dat4 V c).flushed 5 t = ((cfg4.win 5).blk t).view.read (Elt Ideal) (Gz V c) := by
  show (cfg4.win 5).cut (grid4.coords t) ((dat4 V c).after 5 t) = _
  rw [after4_5]
  unfold out4_5
  rw [View.canon_unit_zero hz]
  simp only [View.ld_unit_zero (S := S2000x256) hz, View.ld_unit_zero (S := S256x128) hz, View.ld_unit_zero (S := S1x128) hz]
  rw [pay1 (iblk4 V c 0 t) (iblk4 V c 1 t) (iblk4 V c 2 t)]
  obtain ⟨e00, e01, e10, e11, e20, e21, e30, e31, e40, e41, e50, e51, e60, e61, ht⟩ := idx_facts t
  funext j
  obtain ⟨p, q, rfl⟩ : ∃ (p : Fin 2000) (q : Fin 128), j = ix2 p q := ⟨j 0, j 1, eq_ix2 j⟩
  have hP : t.val * 2000 + p.val < 200000 := by have := p.isLt; omega
  have hi : ((cfg4.win 5).blk t).view.emb (ix2 p q) = ix2 (⟨t.val * 2000 + p.val, hP⟩ : Fin 200000) q := by
    funext a; apply Fin.ext
    match a with
    | ⟨0, _⟩ => show win4_5.index t (0 : Fin 2) * 2000 + 1 * p.val = t.val * 2000 + p.val; omega
    | ⟨1, _⟩ => show win4_5.index t (1 : Fin 2) * 128 + 1 * q.val = q.val; omega
  show relu (lin1 (iblk4 V c 0 t) (iblk4 V c 1 t) (iblk4 V c 2 t)) (ix2 p q) = Gz V c (((cfg4.win 5).blk t).view.emb (ix2 p q))
  rw [hi]
  exact z2_tile V c t p hP q

/-- What tile `t` writes back to the prediction column is block `t` of `Gp`. -/
theorem flushed6 (c : Dev nD) (t : Fin cfg4.N) :
    (dat4 V c).flushed 6 t = ((cfg4.win 6).blk t).view.read (Elt Ideal) (Gp V c) := by
  show (cfg4.win 6).cut (grid4.coords t) ((dat4 V c).after 6 t) = _
  rw [after4_6]
  unfold out4_6
  rw [View.canon_unit_zero hz]
  simp only [View.ld_unit_zero (S := S2000x256) hz, View.ld_unit_zero (S := S256x128) hz, View.ld_unit_zero (S := S1x128) hz,
    View.ld_unit_zero (S := S128x1) hz, View.ld_unit_zero (S := S1x1) hz]
  rw [pay2 (iblk4 V c 0 t) (iblk4 V c 1 t) (iblk4 V c 2 t) (iblk4 V c 3 t) (iblk4 V c 4 t)]
  obtain ⟨e00, e01, e10, e11, e20, e21, e30, e31, e40, e41, e50, e51, e60, e61, ht⟩ := idx_facts t
  funext j
  obtain ⟨p, u, rfl⟩ : ∃ (p : Fin 2000) (u : Fin 1), j = ix2 p u := ⟨j 0, j 1, eq_ix2 j⟩
  have hP : t.val * 2000 + p.val < 200000 := by have := p.isLt; omega
  have hi : ((cfg4.win 6).blk t).view.emb (ix2 p u) = ix2 (⟨t.val * 2000 + p.val, hP⟩ : Fin 200000) u := by
    funext a; apply Fin.ext
    match a with
    | ⟨0, _⟩ => show win4_6.index t (0 : Fin 2) * 2000 + 1 * p.val = t.val * 2000 + p.val; omega
    | ⟨1, _⟩ => show win4_6.index t (1 : Fin 2) * 1 + 1 * u.val = u.val; omega
  show lin1 (relu (lin1 (iblk4 V c 0 t) (iblk4 V c 1 t) (iblk4 V c 2 t))) (iblk4 V c 3 t) (iblk4 V c 4 t) (ix2 p u)
    = Gp V c (((cfg4.win 6).blk t).view.emb (ix2 p u))
  rw [hi]
  unfold Gp
  refine lin1_congr (Gz V c) (V c main_arg22 : S128x1.Idx → EReal) (V c main_v100 : S1x1.Idx → EReal)
    (relu (lin1 (iblk4 V c 0 t) (iblk4 V c 1 t) (iblk4 V c 2 t))) (iblk4 V c 3 t) (iblk4 V c 4 t)
    p u ⟨t.val * 2000 + p.val, hP⟩ u ?_ ?_ ?_
  · intro k'
    exact z2_tile V c t p hP k'
  · intro k'
    show (V c main_arg22 : S128x1.Idx → EReal) (((cfg4.win 3).blk t).view.emb (ix2 k' u)) = (V c main_arg22 : S128x1.Idx → EReal) (ix2 k' u)
    refine congrArg _ (funext fun a => Fin.ext ?_)
    match a with
    | ⟨0, _⟩ => show win4_3.index t (0 : Fin 2) * 128 + 1 * k'.val = k'.val; omega
    | ⟨1, _⟩ => show win4_3.index t (1 : Fin 2) * 1 + 1 * u.val = u.val; omega
  · show (V c main_v100 : S1x1.Idx → EReal) (((cfg4.win 4).blk t).view.emb (ix2 (0 : Fin 1) u)) = (V c main_v100 : S1x1.Idx → EReal) (ix2 (0 : Fin 1) u)
    refine congrArg _ (funext fun a => Fin.ext ?_)
    match a with
    | ⟨0, _⟩ => show win4_4.index t (0 : Fin 2) * 1 + 1 * 0 = 0; omega
    | ⟨1, _⟩ => show win4_4.index t (1 : Fin 2) * 1 + 1 * u.val = u.val; omega

/-- An entry of an output array is in tile `t`'s block iff each coordinate is in the block's range. -/
theorem mem_blk5 (t : Fin cfg4.N) (i : S200000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v101_0).slice (win4_5.rect t)).set ↔ _
  rw [View.set_slice_whole, Rect.mem_set_unit]
  exact Iff.rfl
theorem mem_blk6 (t : Fin cfg4.N) (i : S200000x1.Idx) :
    i ∈ ((cfg4.win 6).blk t).view.set ↔ ∀ a : Fin 2, win4_6.index t a * S2000x1.size a ≤ (i a).val ∧ (i a).val < win4_6.index t a * S2000x1.size a + S2000x1.size a := by
  show i ∈ ((View.whole main_v101_1).slice (win4_6.rect t)).set ↔ _
  rw [View.set_slice_whole, Rect.mem_set_unit]
  exact Iff.rfl

/-- Every entry of an output array is in the block of the tile its row falls in. -/
theorem cover5 (i : S200000x128.Idx) : ∃ t : Fin cfg4.N, (cfg4.win 5).flush t = true ∧ i ∈ ((cfg4.win 5).blk t).view.set := by
  have hi0 : (i 0).val < 200000 := (i 0).isLt
  have hi1 : (i 1).val < 128 := (i 1).isLt
  obtain ⟨t, ht⟩ := idx_onto ⟨(i 0).val / 2000, by omega⟩
  have ht' : t.val = (i 0).val / 2000 := ht
  obtain ⟨-, -, -, -, -, -, -, -, -, -, e50, e51, -, -, -⟩ := idx_facts t
  refine ⟨t, flush4_5 t, ?_⟩
  rw [mem_blk5]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 128 ≤ (i 1).val ∧ (i 1).val < win4_5.index t (1 : Fin 2) * 128 + 128; omega
theorem cover6 (i : S200000x1.Idx) : ∃ t : Fin cfg4.N, (cfg4.win 6).flush t = true ∧ i ∈ ((cfg4.win 6).blk t).view.set := by
  have hi0 : (i 0).val < 200000 := (i 0).isLt
  have hi1 : (i 1).val < 1 := (i 1).isLt
  obtain ⟨t, ht⟩ := idx_onto ⟨(i 0).val / 2000, by omega⟩
  have ht' : t.val = (i 0).val / 2000 := ht
  obtain ⟨-, -, -, -, -, -, -, -, -, -, -, -, e60, e61, -⟩ := idx_facts t
  refine ⟨t, flush4_6 t, ?_⟩
  rw [mem_blk6]
  intro a
  match a with
  | ⟨0, _⟩ => show win4_6.index t (0 : Fin 2) * 2000 ≤ (i 0).val ∧ (i 0).val < win4_6.index t (0 : Fin 2) * 2000 + 2000; omega
  | ⟨1, _⟩ => show win4_6.index t (1 : Fin 2) * 1 ≤ (i 1).val ∧ (i 1).val < win4_6.index t (1 : Fin 2) * 1 + 1; omega

/-- The two output arrays after the whole grid. -/
theorem final5 (c : Dev nD) : (dat4 V c).arrAt 5 cfg4.N = Gz V c :=
  (dat4 V c).arrAt_eq_of_cover 5 (Gz V c) (fun t _ => flushed5 V c t) cover5
theorem final6 (c : Dev nD) : (dat4 V c).arrAt 6 cfg4.N = Gp V c :=
  (dat4 V c).arrAt_eq_of_cover 6 (Gp V c) (fun t _ => flushed6 V c t) cover6

/-- The same, with the arrays the grid finds named. -/
theorem final5_of (c : Dev nD) {z : S200000x256.Idx → EReal} {W : S256x128.Idx → EReal} {b : S1x128.Idx → EReal}
    (h0 : V c main_v98 = z) (h1 : V c main_arg20 = W) (h2 : V c main_v99 = b) :
    (dat4 V c).arrAt 5 cfg4.N = relu (lin1 z W b) := by
  rw [final5]
  unfold Gz
  rw [h0, h1, h2]
theorem final6_of (c : Dev nD) {z : S200000x256.Idx → EReal} {W : S256x128.Idx → EReal} {b : S1x128.Idx → EReal}
    {W2 : S128x1.Idx → EReal} {b2 : S1x1.Idx → EReal}
    (h0 : V c main_v98 = z) (h1 : V c main_arg20 = W) (h2 : V c main_v99 = b) (h3 : V c main_arg22 = W2) (h4 : V c main_v100 = b2) :
    (dat4 V c).arrAt 6 cfg4.N = lin1 (relu (lin1 z W b)) W2 b2 := by
  rw [final6]
  unfold Gp Gz
  rw [h0, h1, h2, h3, h4]

end Cert.KernelIdeal.Grid4

end
-- ==== Proof.Chain.lean ====
/-
  THE IDEALIZED KERNEL PROGRAM'S RESULTS ARE THE SPECIFICATION'S.

  Walking the fold of buffer contents through @main: each stretch of host operations computes the mean aggregation (and
  the bias row's reshape) of arrays that are still what the launch or an earlier grid left; each grid leaves its
  output array at the dense layer of the arrays it finds (the per-grid modules); so the five grids' outputs are, in
  turn, the specification's first-layer hotel and author rows, its second-layer hotel and author rows, and the
  decoder's hidden rows and prediction column — and the three returned buffers hold the specification's three results.
-/
import proofs.«102371_j7765300871785_1_alg».proof.Proof.Fold
import proofs.«102371_j7765300871785_1_alg».proof.Proof.Spec
import proofs.«102371_j7765300871785_1_alg».proof.Proof.Grid0
import proofs.«102371_j7765300871785_1_alg».proof.Proof.Grid1
import proofs.«102371_j7765300871785_1_alg».proof.Proof.Grid2
import proofs.«102371_j7765300871785_1_alg».proof.Proof.Grid3
import proofs.«102371_j7765300871785_1_alg».proof.Proof.Grid4
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.SageLin Cert.Spec

variable (m : (ℓ : Loc nD τ sig) → Buf (Elt Ideal) ℓ) (ρ : Dev nD → PrngReg) (c : Dev nD)

/-- The kernel program's argument arrays on device `c`, by position. -/
def args : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)
  a16 := m ((c.tc : Thread nD τ).loc main_arg16)
  a17 := m ((c.tc : Thread nD τ).loc main_arg17)
  a18 := m ((c.tc : Thread nD τ).loc main_arg18)
  a19 := m ((c.tc : Thread nD τ).loc main_arg19)
  a20 := m ((c.tc : Thread nD τ).loc main_arg20)
  a21 := m ((c.tc : Thread nD τ).loc main_arg21)
  a22 := m ((c.tc : Thread nD τ).loc main_arg22)
  a23 := m ((c.tc : Thread nD τ).loc main_arg23)

/-! ## The argument arrays, still as launched where they are read -/

theorem a1_1 : W1 m ρ c (Proc.devRef .tc main_arg1) = (args m c).a1 :=
  (Fold.keep1 m ρ c main_arg1 (by decide))
theorem a8_1 : W1 m ρ c (Proc.devRef .tc main_arg8) = (args m c).a8 :=
  (Fold.keep1 m ρ c main_arg8 (by decide))
theorem a10_1 : W1 m ρ c (Proc.devRef .tc main_arg10) = (args m c).a10 :=
  (Fold.keep1 m ρ c main_arg10 (by decide))
theorem a1_2 : W2 m ρ c (Proc.devRef .tc main_arg1) = (args m c).a1 :=
  ((Fold.keep2 m ρ c main_arg1 (by decide)).trans (Fold.keep1 m ρ c main_arg1 (by decide)))
theorem a4_2 : W2 m ρ c (Proc.devRef .tc main_arg4) = (args m c).a4 :=
  ((Fold.keep2 m ρ c main_arg4 (by decide)).trans (Fold.keep1 m ρ c main_arg4 (by decide)))
theorem a5_2 : W2 m ρ c (Proc.devRef .tc main_arg5) = (args m c).a5 :=
  ((Fold.keep2 m ρ c main_arg5 (by decide)).trans (Fold.keep1 m ρ c main_arg5 (by decide)))
theorem a12_2 : W2 m ρ c (Proc.devRef .tc main_arg12) = (args m c).a12 :=
  ((Fold.keep2 m ρ c main_arg12 (by decide)).trans (Fold.keep1 m ρ c main_arg12 (by decide)))
theorem a0_3 : W3 m ρ c (Proc.devRef .tc main_arg0) = (args m c).a0 :=
  ((Fold.keep3 m ρ c main_arg0 (by decide)).trans ((Fold.keep2 m ρ c main_arg0 (by decide)).trans (Fold.keep1 m ρ c main_arg0 (by decide))))
theorem a11_3 : W3 m ρ c (Proc.devRef .tc main_arg11) = (args m c).a11 :=
  ((Fold.keep3 m ρ c main_arg11 (by decide)).trans ((Fold.keep2 m ρ c main_arg11 (by decide)).trans (Fold.keep1 m ρ c main_arg11 (by decide))))
theorem a13_3 : W3 m ρ c (Proc.devRef .tc main_arg13) = (args m c).a13 :=
  ((Fold.keep3 m ρ c main_arg13 (by decide)).trans ((Fold.keep2 m ρ c main_arg13 (by decide)).trans (Fold.keep1 m ρ c main_arg13 (by decide))))
theorem a2_4 : W4 m ρ c (Proc.devRef .tc main_arg2) = (args m c).a2 :=
  ((Fold.keep4 m ρ c main_arg2 (by decide)).trans ((Fold.keep3 m ρ c main_arg2 (by decide)).trans ((Fold.keep2 m ρ c main_arg2 (by decide)).trans (Fold.keep1 m ρ c main_arg2 (by decide)))))
theorem a3_4 : W4 m ρ c (Proc.devRef .tc main_arg3) = (args m c).a3 :=
  ((Fold.keep4 m ρ c main_arg3 (by decide)).trans ((Fold.keep3 m ρ c main_arg3 (by decide)).trans ((Fold.keep2 m ρ c main_arg3 (by decide)).trans (Fold.keep1 m ρ c main_arg3 (by decide)))))
theorem a15_4 : W4 m ρ c (Proc.devRef .tc main_arg15) = (args m c).a15 :=
  ((Fold.keep4 m ρ c main_arg15 (by decide)).trans ((Fold.keep3 m ρ c main_arg15 (by decide)).trans ((Fold.keep2 m ρ c main_arg15 (by decide)).trans (Fold.keep1 m ρ c main_arg15 (by decide)))))
theorem a14_5 : W5 m ρ c (Proc.devRef .tc main_arg14) = (args m c).a14 :=
  ((Fold.keep5 m ρ c main_arg14 (by decide)).trans ((Fold.keep4 m ρ c main_arg14 (by decide)).trans ((Fold.keep3 m ρ c main_arg14 (by decide)).trans ((Fold.keep2 m ρ c main_arg14 (by decide)).trans (Fold.keep1 m ρ c main_arg14 (by decide))))))
theorem a16_5 : W5 m ρ c (Proc.devRef .tc main_arg16) = (args m c).a16 :=
  ((Fold.keep5 m ρ c main_arg16 (by decide)).trans ((Fold.keep4 m ρ c main_arg16 (by decide)).trans ((Fold.keep3 m ρ c main_arg16 (by decide)).trans ((Fold.keep2 m ρ c main_arg16 (by decide)).trans (Fold.keep1 m ρ c main_arg16 (by decide))))))
theorem a4_6 : W6 m ρ c (Proc.devRef .tc main_arg4) = (args m c).a4 :=
  ((Fold.keep6 m ρ c main_arg4 (by decide)).trans ((Fold.keep5 m ρ c main_arg4 (by decide)).trans ((Fold.keep4 m ρ c main_arg4 (by decide)).trans ((Fold.keep3 m ρ c main_arg4 (by decide)).trans ((Fold.keep2 m ρ c main_arg4 (by decide)).trans (Fold.keep1 m ρ c main_arg4 (by decide)))))))
theorem a5_6 : W6 m ρ c (Proc.devRef .tc main_arg5) = (args m c).a5 :=
  ((Fold.keep6 m ρ c main_arg5 (by decide)).trans ((Fold.keep5 m ρ c main_arg5 (by decide)).trans ((Fold.keep4 m ρ c main_arg5 (by decide)).trans ((Fold.keep3 m ρ c main_arg5 (by decide)).trans ((Fold.keep2 m ρ c main_arg5 (by decide)).trans (Fold.keep1 m ρ c main_arg5 (by decide)))))))
theorem a18_6 : W6 m ρ c (Proc.devRef .tc main_arg18) = (args m c).a18 :=
  ((Fold.keep6 m ρ c main_arg18 (by decide)).trans ((Fold.keep5 m ρ c main_arg18 (by decide)).trans ((Fold.keep4 m ρ c main_arg18 (by decide)).trans ((Fold.keep3 m ρ c main_arg18 (by decide)).trans ((Fold.keep2 m ρ c main_arg18 (by decide)).trans (Fold.keep1 m ρ c main_arg18 (by decide)))))))
theorem a17_7 : W7 m ρ c (Proc.devRef .tc main_arg17) = (args m c).a17 :=
  ((Fold.keep7 m ρ c main_arg17 (by decide)).trans ((Fold.keep6 m ρ c main_arg17 (by decide)).trans ((Fold.keep5 m ρ c main_arg17 (by decide)).trans ((Fold.keep4 m ρ c main_arg17 (by decide)).trans ((Fold.keep3 m ρ c main_arg17 (by decide)).trans ((Fold.keep2 m ρ c main_arg17 (by decide)).trans (Fold.keep1 m ρ c main_arg17 (by decide))))))))
theorem a19_7 : W7 m ρ c (Proc.devRef .tc main_arg19) = (args m c).a19 :=
  ((Fold.keep7 m ρ c main_arg19 (by decide)).trans ((Fold.keep6 m ρ c main_arg19 (by decide)).trans ((Fold.keep5 m ρ c main_arg19 (by decide)).trans ((Fold.keep4 m ρ c main_arg19 (by decide)).trans ((Fold.keep3 m ρ c main_arg19 (by decide)).trans ((Fold.keep2 m ρ c main_arg19 (by decide)).trans (Fold.keep1 m ρ c main_arg19 (by decide))))))))
theorem a6_8 : W8 m ρ c (Proc.devRef .tc main_arg6) = (args m c).a6 :=
  ((Fold.keep8 m ρ c main_arg6 (by decide)).trans ((Fold.keep7 m ρ c main_arg6 (by decide)).trans ((Fold.keep6 m ρ c main_arg6 (by decide)).trans ((Fold.keep5 m ρ c main_arg6 (by decide)).trans ((Fold.keep4 m ρ c main_arg6 (by decide)).trans ((Fold.keep3 m ρ c main_arg6 (by decide)).trans ((Fold.keep2 m ρ c main_arg6 (by decide)).trans (Fold.keep1 m ρ c main_arg6 (by decide)))))))))
theorem a7_8 : W8 m ρ c (Proc.devRef .tc main_arg7) = (args m c).a7 :=
  ((Fold.keep8 m ρ c main_arg7 (by decide)).trans ((Fold.keep7 m ρ c main_arg7 (by decide)).trans ((Fold.keep6 m ρ c main_arg7 (by decide)).trans ((Fold.keep5 m ρ c main_arg7 (by decide)).trans ((Fold.keep4 m ρ c main_arg7 (by decide)).trans ((Fold.keep3 m ρ c main_arg7 (by decide)).trans ((Fold.keep2 m ρ c main_arg7 (by decide)).trans (Fold.keep1 m ρ c main_arg7 (by decide)))))))))
theorem a21_8 : W8 m ρ c (Proc.devRef .tc main_arg21) = (args m c).a21 :=
  ((Fold.keep8 m ρ c main_arg21 (by decide)).trans ((Fold.keep7 m ρ c main_arg21 (by decide)).trans ((Fold.keep6 m ρ c main_arg21 (by decide)).trans ((Fold.keep5 m ρ c main_arg21 (by decide)).trans ((Fold.keep4 m ρ c main_arg21 (by decide)).trans ((Fold.keep3 m ρ c main_arg21 (by decide)).trans ((Fold.keep2 m ρ c main_arg21 (by decide)).trans (Fold.keep1 m ρ c main_arg21 (by decide)))))))))
theorem a23_8 : W8 m ρ c (Proc.devRef .tc main_arg23) = (args m c).a23 :=
  ((Fold.keep8 m ρ c main_arg23 (by decide)).trans ((Fold.keep7 m ρ c main_arg23 (by decide)).trans ((Fold.keep6 m ρ c main_arg23 (by decide)).trans ((Fold.keep5 m ρ c main_arg23 (by decide)).trans ((Fold.keep4 m ρ c main_arg23 (by decide)).trans ((Fold.keep3 m ρ c main_arg23 (by decide)).trans ((Fold.keep2 m ρ c main_arg23 (by decide)).trans (Fold.keep1 m ρ c main_arg23 (by decide)))))))))
theorem a20_9 : W9 m ρ c (Proc.devRef .tc main_arg20) = (args m c).a20 :=
  ((Fold.keep9 m ρ c main_arg20 (by decide)).trans ((Fold.keep8 m ρ c main_arg20 (by decide)).trans ((Fold.keep7 m ρ c main_arg20 (by decide)).trans ((Fold.keep6 m ρ c main_arg20 (by decide)).trans ((Fold.keep5 m ρ c main_arg20 (by decide)).trans ((Fold.keep4 m ρ c main_arg20 (by decide)).trans ((Fold.keep3 m ρ c main_arg20 (by decide)).trans ((Fold.keep2 m ρ c main_arg20 (by decide)).trans (Fold.keep1 m ρ c main_arg20 (by decide))))))))))
theorem a22_9 : W9 m ρ c (Proc.devRef .tc main_arg22) = (args m c).a22 :=
  ((Fold.keep9 m ρ c main_arg22 (by decide)).trans ((Fold.keep8 m ρ c main_arg22 (by decide)).trans ((Fold.keep7 m ρ c main_arg22 (by decide)).trans ((Fold.keep6 m ρ c main_arg22 (by decide)).trans ((Fold.keep5 m ρ c main_arg22 (by decide)).trans ((Fold.keep4 m ρ c main_arg22 (by decide)).trans ((Fold.keep3 m ρ c main_arg22 (by decide)).trans ((Fold.keep2 m ρ c main_arg22 (by decide)).trans (Fold.keep1 m ρ c main_arg22 (by decide))))))))))

/-! ## Stretch 0 and grid 0: the first layer's hotel rows -/

theorem a0_0 : W0 m ρ c (Proc.devRef .tc main_arg0) = (args m c).a0 := rfl
theorem a2_0 : W0 m ρ c (Proc.devRef .tc main_arg2) = (args m c).a2 := rfl
theorem a3_0 : W0 m ρ c (Proc.devRef .tc main_arg3) = (args m c).a3 := rfl
theorem a9_0 : W0 m ρ c (Proc.devRef .tc main_arg9) = (args m c).a9 := rfl

theorem v18 : W1 m ρ c (Proc.devRef .tc main_v18) = meanH (args m c).a0 (args m c).a2 (args m c).a3 := by
  have h : W1 m ρ c (Proc.devRef .tc main_v18) = meanH (W0 m ρ c (Proc.devRef .tc main_arg0)) (W0 m ρ c (Proc.devRef .tc main_arg2)) (W0 m ρ c (Proc.devRef .tc main_arg3)) := by
    show StableHlo.after hostOps0 (W0 m ρ c) (Proc.devRef .tc main_v18) = _
    unfold meanH wrapE
    after_results_simp <;> rfl
  rw [h, a0_0 m ρ c, a2_0 m ρ c, a3_0 m ρ c]

theorem v19 : W1 m ρ c (Proc.devRef .tc main_v19) = row (args m c).a9 := by
  have h : W1 m ρ c (Proc.devRef .tc main_v19) = row (W0 m ρ c (Proc.devRef .tc main_arg9)) := by
    show StableHlo.after hostOps0 (W0 m ρ c) (Proc.devRef .tc main_v19) = _
    after_results_simp
    exact shapeCast_row _ _
  rw [h, a9_0 m ρ c]

theorem v20 : W2 m ρ c (Proc.devRef .tc main_v20) = hH specL (args m c) :=
  (W2_arr m ρ c 5).trans (Grid0.final_of (V1 m ρ) c (v18 m ρ c) (a1_1 m ρ c) (a8_1 m ρ c) (v19 m ρ c) (a10_1 m ρ c))

/-! ## Stretch 1 and grid 1: the first layer's author rows -/

theorem v39 : W3 m ρ c (Proc.devRef .tc main_v39) = meanA (args m c).a1 (args m c).a4 (args m c).a5 := by
  have h : W3 m ρ c (Proc.devRef .tc main_v39) = meanA (W2 m ρ c (Proc.devRef .tc main_arg1)) (W2 m ρ c (Proc.devRef .tc main_arg4)) (W2 m ρ c (Proc.devRef .tc main_arg5)) := by
    show StableHlo.after hostOps1 (W2 m ρ c) (Proc.devRef .tc main_v39) = _
    unfold meanA wrapE
    after_results_simp <;> rfl
  rw [h, a1_2 m ρ c, a4_2 m ρ c, a5_2 m ρ c]

theorem v40 : W3 m ρ c (Proc.devRef .tc main_v40) = row (args m c).a12 := by
  have h : W3 m ρ c (Proc.devRef .tc main_v40) = row (W2 m ρ c (Proc.devRef .tc main_arg12)) := by
    show StableHlo.after hostOps1 (W2 m ρ c) (Proc.devRef .tc main_v40) = _
    after_results_simp
    exact shapeCast_row _ _
  rw [h, a12_2 m ρ c]

theorem v41 : W4 m ρ c (Proc.devRef .tc main_v41) = hA specL (args m c) :=
  (W4_arr m ρ c 5).trans (Grid1.final_of (V3 m ρ) c (v39 m ρ c) (a0_3 m ρ c) (a11_3 m ρ c) (v40 m ρ c) (a13_3 m ρ c))

/-! ## Stretch 2 and grid 2: the second layer's hotel rows -/

theorem v60 : W5 m ρ c (Proc.devRef .tc main_v60) = meanH (hA specL (args m c)) (args m c).a2 (args m c).a3 := by
  have h : W5 m ρ c (Proc.devRef .tc main_v60) = meanH (W4 m ρ c (Proc.devRef .tc main_v41)) (W4 m ρ c (Proc.devRef .tc main_arg2)) (W4 m ρ c (Proc.devRef .tc main_arg3)) := by
    show StableHlo.after hostOps2 (W4 m ρ c) (Proc.devRef .tc main_v60) = _
    unfold meanH wrapE
    after_results_simp <;> rfl
  rw [h, v41 m ρ c, a2_4 m ρ c, a3_4 m ρ c]

theorem v61 : W5 m ρ c (Proc.devRef .tc main_v61) = row (args m c).a15 := by
  have h : W5 m ρ c (Proc.devRef .tc main_v61) = row (W4 m ρ c (Proc.devRef .tc main_arg15)) := by
    show StableHlo.after hostOps2 (W4 m ρ c) (Proc.devRef .tc main_v61) = _
    after_results_simp
    exact shapeCast_row _ _
  rw [h, a15_4 m ρ c]

theorem v20_5 : W5 m ρ c (Proc.devRef .tc main_v20) = hH specL (args m c) :=
  ((Fold.keep5 m ρ c main_v20 (by decide)).trans ((Fold.keep4 m ρ c main_v20 (by decide)).trans (Fold.keep3 m ρ c main_v20 (by decide)))).trans (v20 m ρ c)
theorem v62 : W6 m ρ c (Proc.devRef .tc main_v62) = zH specL (args m c) :=
  (W6_arr m ρ c 5).trans (Grid2.final_of (V5 m ρ) c (v60 m ρ c) (v20_5 m ρ c) (a14_5 m ρ c) (v61 m ρ c) (a16_5 m ρ c))

/-! ## Stretch 3 and grid 3: the second layer's author rows -/

theorem v20_6 : W6 m ρ c (Proc.devRef .tc main_v20) = hH specL (args m c) :=
  (Fold.keep6 m ρ c main_v20 (by decide)).trans (v20_5 m ρ c)
theorem v81 : W7 m ρ c (Proc.devRef .tc main_v81) = meanA (hH specL (args m c)) (args m c).a4 (args m c).a5 := by
  have h : W7 m ρ c (Proc.devRef .tc main_v81) = meanA (W6 m ρ c (Proc.devRef .tc main_v20)) (W6 m ρ c (Proc.devRef .tc main_arg4)) (W6 m ρ c (Proc.devRef .tc main_arg5)) := by
    show StableHlo.after hostOps3 (W6 m ρ c) (Proc.devRef .tc main_v81) = _
    unfold meanA wrapE
    after_results_simp <;> rfl
  rw [h, v20_6 m ρ c, a4_6 m ρ c, a5_6 m ρ c]

theorem v82 : W7 m ρ c (Proc.devRef .tc main_v82) = row (args m c).a18 := by
  have h : W7 m ρ c (Proc.devRef .tc main_v82) = row (W6 m ρ c (Proc.devRef .tc main_arg18)) := by
    show StableHlo.after hostOps3 (W6 m ρ c) (Proc.devRef .tc main_v82) = _
    after_results_simp
    exact shapeCast_row _ _
  rw [h, a18_6 m ρ c]

theorem v41_7 : W7 m ρ c (Proc.devRef .tc main_v41) = hA specL (args m c) :=
  ((Fold.keep7 m ρ c main_v41 (by decide)).trans ((Fold.keep6 m ρ c main_v41 (by decide)).trans (Fold.keep5 m ρ c main_v41 (by decide)))).trans (v41 m ρ c)
theorem v83 : W8 m ρ c (Proc.devRef .tc main_v83) = zA specL (args m c) :=
  (W8_arr m ρ c 5).trans (Grid3.final_of (V7 m ρ) c (v81 m ρ c) (v41_7 m ρ c) (a17_7 m ρ c) (v82 m ρ c) (a19_7 m ρ c))

/-! ## Stretch 4 and grid 4: the decoder -/

theorem v62_8 : W8 m ρ c (Proc.devRef .tc main_v62) = zH specL (args m c) :=
  ((Fold.keep8 m ρ c main_v62 (by decide)).trans (Fold.keep7 m ρ c main_v62 (by decide))).trans (v62 m ρ c)
theorem v98 : W9 m ρ c (Proc.devRef .tc main_v98) = Z1 specL (args m c) := by
  have h : W9 m ρ c (Proc.devRef .tc main_v98) = z1 (W8 m ρ c (Proc.devRef .tc main_v83)) (W8 m ρ c (Proc.devRef .tc main_v62)) (W8 m ρ c (Proc.devRef .tc main_arg6)) (W8 m ρ c (Proc.devRef .tc main_arg7)) := by
    show StableHlo.after hostOps4 (W8 m ρ c) (Proc.devRef .tc main_v98) = _
    unfold z1 wrapL
    after_results_simp
    refine congrArg₂ (fun a b : S200000x128.Idx → Elt Ideal .f32 => concatenate S200000x256 1
      [⟨S200000x128, a⟩, ⟨S200000x128, b⟩] concatenates_S200000x128_S200000x128_S200000x256_d1) ?_ ?_
    · after_results_simp <;> rfl
    · after_results_simp <;> rfl
  rw [h, v83 m ρ c, v62_8 m ρ c, a6_8 m ρ c, a7_8 m ρ c]
  rfl

theorem v99 : W9 m ρ c (Proc.devRef .tc main_v99) = row (args m c).a21 := by
  have h : W9 m ρ c (Proc.devRef .tc main_v99) = row (W8 m ρ c (Proc.devRef .tc main_arg21)) := by
    show StableHlo.after hostOps4 (W8 m ρ c) (Proc.devRef .tc main_v99) = _
    after_results_simp
    exact shapeCast_row _ _
  rw [h, a21_8 m ρ c]

theorem v100 : W9 m ρ c (Proc.devRef .tc main_v100) = row (args m c).a23 := by
  have h : W9 m ρ c (Proc.devRef .tc main_v100) = row (W8 m ρ c (Proc.devRef .tc main_arg23)) := by
    show StableHlo.after hostOps4 (W8 m ρ c) (Proc.devRef .tc main_v100) = _
    after_results_simp
    exact shapeCast_row _ _
  rw [h, a23_8 m ρ c]

theorem v101_0 : W10 m ρ c (Proc.devRef .tc main_v101_0) = Z2 specL (args m c) :=
  (W10_arr m ρ c 5).trans (Grid4.final5_of (V9 m ρ) c (v98 m ρ c) (a20_9 m ρ c) (v99 m ρ c))
theorem v101_1 : W10 m ρ c (Proc.devRef .tc main_v101_1) = Pcol specL (args m c) :=
  (W10_arr m ρ c 6).trans (Grid4.final6_of (V9 m ρ) c (v98 m ρ c) (a20_9 m ρ c) (v99 m ρ c) (a22_9 m ρ c) (v100 m ρ c))

/-! ## Stretch 5: the three returned buffers -/

theorem r0 : W11 m ρ c (Proc.devRef .tc main_v102) = P specL (args m c) := by
  have h : W11 m ρ c (Proc.devRef .tc main_v102) = shapeCast S200000 (W10 m ρ c (Proc.devRef .tc main_v101_1)) shapeCasts_S200000x1_S200000 := by
    show StableHlo.after hostOps5 (W10 m ρ c) (Proc.devRef .tc main_v102) = _
    after_results_simp <;> rfl
  rw [h, v101_1 m ρ c]
  rfl
theorem r1 : W11 m ρ c (Proc.devRef .tc main_v98) = Z1 specL (args m c) :=
  ((Fold.keep11 m ρ c main_v98 (by decide)).trans (Fold.keep10 m ρ c main_v98 (by decide) (by decide))).trans (v98 m ρ c)
theorem r2 : W11 m ρ c (Proc.devRef .tc main_v101_0) = Z2 specL (args m c) :=
  (Fold.keep11 m ρ c main_v101_0 (by decide)).trans (v101_0 m ρ c)

end Cert.KernelIdeal.Chain

end
-- ==== Proof.RefSide.lean ====
/-
  THE REFERENCE'S DENSE LAYERS ARE THE SPECIFICATION'S.

  The reference spells a two-sided layer as  dot_general(agg, Wl) + bias + dot_general(x, Wr)  with the rank-1 bias
  broadcast first to one row and then over all rows, and the rectifier as the maximum with a broadcast zero. At every
  entry these are the specification's sums, in the same order: a plain matrix product is the sum over the contracted
  axis, and every row of the broadcast bias is the bias row. With its layers so read, the reference's three results
  are the specification's three results of its own argument arrays.
-/
import proofs.«102371_j7765300871785_1_alg».proof.Proof.Spec
import proofs.«102371_j7765300871785_1_alg».proof.Proof.Gen.ReferenceIdeal.Run
import proofs.«102371_j7765300871785_1_alg».proof.Proof.Gen.KernelIdeal

set_option maxRecDepth 16384

noncomputable section

namespace Cert.RefSide

open Idealize.ShloMosaic Idealize.ShloMosaic.ValueIdx Idealize.ShloMosaic.TcCoe Idealize.SL.Sem Idealize.SageLin Cert.Spec

/-- The reference's spelling of the dense layers. -/
def refL : Layers where
  linH := fun a x Wl b Wr =>
    addf (addf (Host.dotGeneral (F := Ideal) (φ₁ := .f32) (φ₂ := .f32) Cert.ReferenceIdeal.dot_S20000x128_S128x128_S20000x128_1_0_0_1_n_n none a Wl)
        (broadcastInDim Cert.ReferenceIdeal.S20000x128 ![0, 1] Cert.ReferenceIdeal.Facts₀.bcast_S1x128_S20000x128_0_1
          (broadcastInDim Cert.ReferenceIdeal.S1x128 ![1] Cert.ReferenceIdeal.Facts₀.bcast_S128_S1x128_1 b)))
      (Host.dotGeneral (F := Ideal) (φ₁ := .f32) (φ₂ := .f32) Cert.ReferenceIdeal.dot_S20000x128_S128x128_S20000x128_1_0_0_1_n_n none x Wr)
  linA := fun a x Wl b Wr =>
    addf (addf (Host.dotGeneral (F := Ideal) (φ₁ := .f32) (φ₂ := .f32) Cert.ReferenceIdeal.dot_S100000x128_S128x128_S100000x128_1_0_0_1_n_n none a Wl)
        (broadcastInDim Cert.ReferenceIdeal.S100000x128 ![0, 1] Cert.ReferenceIdeal.Facts₀.bcast_S1x128_S100000x128_0_1
          (broadcastInDim Cert.ReferenceIdeal.S1x128 ![1] Cert.ReferenceIdeal.Facts₀.bcast_S128_S1x128_1 b)))
      (Host.dotGeneral (F := Ideal) (φ₁ := .f32) (φ₂ := .f32) Cert.ReferenceIdeal.dot_S100000x128_S128x128_S100000x128_1_0_0_1_n_n none x Wr)
  reluH := fun v => maximumf v (broadcastInDim Cert.ReferenceIdeal.S20000x128 ![] Cert.ReferenceIdeal.Facts₀.bcast_S_S20000x128
      (constant (F := Ideal) Cert.ReferenceIdeal.S_ .f32 0x00000000#32))
  reluA := fun v => maximumf v (broadcastInDim Cert.ReferenceIdeal.S100000x128 ![] Cert.ReferenceIdeal.Facts₀.bcast_S_S100000x128
      (constant (F := Ideal) Cert.ReferenceIdeal.S_ .f32 0x00000000#32))
  hid := fun z W b =>
    maximumf (addf (Host.dotGeneral (F := Ideal) (φ₁ := .f32) (φ₂ := .f32) Cert.ReferenceIdeal.dot_S200000x256_S256x128_S200000x128_1_0_0_1_n_n none z W)
        (broadcastInDim Cert.ReferenceIdeal.S200000x128 ![0, 1] Cert.ReferenceIdeal.Facts₀.bcast_S1x128_S200000x128_0_1
          (broadcastInDim Cert.ReferenceIdeal.S1x128 ![1] Cert.ReferenceIdeal.Facts₀.bcast_S128_S1x128_1 b)))
      (broadcastInDim Cert.ReferenceIdeal.S200000x128 ![] Cert.ReferenceIdeal.Facts₀.bcast_S_S200000x128
        (constant (F := Ideal) Cert.ReferenceIdeal.S_ .f32 0x00000000#32))
  out := fun z W b =>
    addf (Host.dotGeneral (F := Ideal) (φ₁ := .f32) (φ₂ := .f32) Cert.ReferenceIdeal.dot_S200000x128_S128x1_S200000x1_1_0_0_1_n_n none z W)
      (broadcastInDim Cert.ReferenceIdeal.S200000x1 ![0, 1] Cert.ReferenceIdeal.Facts₀.bcast_S1x1_S200000x1_0_1
        (broadcastInDim Cert.ReferenceIdeal.S1x1 ![1] Cert.ReferenceIdeal.Facts₀.bcast_S1_S1x1_1 b))

theorem dotH_plain : Cert.ReferenceIdeal.dot_S20000x128_S128x128_S20000x128_1_0_0_1_n_n = DotDims.plain 20000 128 128 :=
  Idealize.PlainDot.eq_plain _ rfl rfl rfl rfl rfl rfl
theorem dotA_plain : Cert.ReferenceIdeal.dot_S100000x128_S128x128_S100000x128_1_0_0_1_n_n = DotDims.plain 100000 128 128 :=
  Idealize.PlainDot.eq_plain _ rfl rfl rfl rfl rfl rfl
theorem dotHid_plain : Cert.ReferenceIdeal.dot_S200000x256_S256x128_S200000x128_1_0_0_1_n_n = DotDims.plain 200000 256 128 :=
  Idealize.PlainDot.eq_plain _ rfl rfl rfl rfl rfl rfl
theorem dotOut_plain : Cert.ReferenceIdeal.dot_S200000x128_S128x1_S200000x1_1_0_0_1_n_n = DotDims.plain 200000 128 1 :=
  Idealize.PlainDot.eq_plain _ rfl rfl rfl rfl rfl rfl

theorem linH_eq (a x : Fc Cert.KernelIdeal.S20000x128) (Wl : Fc Cert.KernelIdeal.S128x128) (b : Fc Cert.KernelIdeal.S128) (Wr : Fc Cert.KernelIdeal.S128x128) :
    refL.linH a x Wl b Wr = specL.linH a x Wl b Wr := by
  dsimp only [refL, specL]
  rw [host_lin1 (φ₁ := .f32) (φ₂ := .f32) _ dotH_plain none a Wl _ (row b) (fun p q => bcast_row_apply b _ _ p q),
    host_lin2 (φ₁ := .f32) (φ₂ := .f32) _ dotH_plain]

theorem linA_eq (a x : Fc Cert.KernelIdeal.S100000x128) (Wl : Fc Cert.KernelIdeal.S128x128) (b : Fc Cert.KernelIdeal.S128) (Wr : Fc Cert.KernelIdeal.S128x128) :
    refL.linA a x Wl b Wr = specL.linA a x Wl b Wr := by
  dsimp only [refL, specL]
  rw [host_lin1 (φ₁ := .f32) (φ₂ := .f32) _ dotA_plain none a Wl _ (row b) (fun p q => bcast_row_apply b _ _ p q),
    host_lin2 (φ₁ := .f32) (φ₂ := .f32) _ dotA_plain]

theorem reluH_eq (v : Fc Cert.KernelIdeal.S20000x128) : refL.reluH v = specL.reluH v :=
  max_zero_relu (R := 20000) (C := 128) v _ (fun i => bcast_const_apply _ _ i)

theorem reluA_eq (v : Fc Cert.KernelIdeal.S100000x128) : refL.reluA v = specL.reluA v :=
  max_zero_relu (R := 100000) (C := 128) v _ (fun i => bcast_const_apply _ _ i)

theorem hid_eq (z : Fc Cert.KernelIdeal.S200000x256) (W : Fc Cert.KernelIdeal.S256x128) (b : Fc Cert.KernelIdeal.S128) :
    refL.hid z W b = specL.hid z W b := by
  dsimp only [refL, specL]
  rw [host_lin1 (φ₁ := .f32) (φ₂ := .f32) _ dotHid_plain none z W _ (row b) (fun p q => bcast_row_apply b _ _ p q)]
  exact max_zero_relu (R := 200000) (C := 128) _ _ (fun i => bcast_const_apply _ _ i)

theorem out_eq (z : Fc Cert.KernelIdeal.S200000x128) (W : Fc Cert.KernelIdeal.S128x1) (b : Fc Cert.KernelIdeal.S1) :
    refL.out z W b = specL.out z W b := by
  dsimp only [refL, specL]
  exact host_lin1 (φ₁ := .f32) (φ₂ := .f32) _ dotOut_plain none z W _ (row b) (fun p q => bcast_row_apply b _ _ p q)

/-- Two families of layers with the same six layers are the same. -/
theorem layers_ext (L L' : Layers) (h1 : L.linH = L'.linH) (h2 : L.linA = L'.linA) (h3 : L.reluH = L'.reluH)
    (h4 : L.reluA = L'.reluA) (h5 : L.hid = L'.hid) (h6 : L.out = L'.out) : L = L' := by
  cases L; cases L'
  simp only [Layers.mk.injEq]
  exact ⟨h1, h2, h3, h4, h5, h6⟩

/-- The reference's layers are the specification's. -/
theorem refL_eq : refL = specL :=
  layers_ext _ _ (by funext a x Wl b Wr; exact linH_eq a x Wl b Wr) (by funext a x Wl b Wr; exact linA_eq a x Wl b Wr)
    (by funext v; exact reluH_eq v) (by funext v; exact reluA_eq v) (by funext z W b; exact hid_eq z W b)
    (by funext z W b; exact out_eq z W b)

section Run

open Cert.ReferenceIdeal Cert.ReferenceIdeal.Value

variable (m : (ℓ : Loc nD τ sig) → Buf (Elt Ideal) ℓ) (c : Dev nD)

/-- The reference's argument arrays on device `c`, by position. -/
def args : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)
  a16 := m ((c.tc : Thread nD τ).loc main_arg16)
  a17 := m ((c.tc : Thread nD τ).loc main_arg17)
  a18 := m ((c.tc : Thread nD τ).loc main_arg18)
  a19 := m ((c.tc : Thread nD τ).loc main_arg19)
  a20 := m ((c.tc : Thread nD τ).loc main_arg20)
  a21 := m ((c.tc : Thread nD τ).loc main_arg21)
  a22 := m ((c.tc : Thread nD τ).loc main_arg22)
  a23 := m ((c.tc : Thread nD τ).loc main_arg23)

/-- The reference's results are the specification's, its layers spelt its own way. -/
theorem res0 : res_main_v126 m c = P refL (args m c) := by unfold res_main_v126; rfl
theorem res1 : res_main_v116 m c = Z1 refL (args m c) := by unfold res_main_v116; rfl
theorem res2 : res_main_v121 m c = Z2 refL (args m c) := by unfold res_main_v121; rfl

end Run

end Cert.RefSide

end
-- ==== Proof.lean ====
/-
  A two-layer mean-aggregation graph network on two node types with an edge decoder, its five dense layers computed tile
  by tile on the matrix unit, against the same network written with host matrix products.

  On the extended reals the two programs agree entry by entry with no appeal to finiteness: the gather, the segment sums
  and the division by the clipped in-degree are the same host operations in both; a tile's product into a zero
  accumulator and a host `dot_general` are the same sum over the contracted axis; the change of float format before
  the matrix unit is the identity; and the bias and the second product are added in the same order on both sides. The
  kernel program's results are read off its run (every buffer ends at the last boundary's contents, and the fold of
  contents through the stretches and grids is the specification); the reference's off its generated run.
  The three frames are the generated ones (the reference's is its run with the results dropped); the idealization
  rewrote nothing, so its preservation claim is trivial.
-/
import proofs.«102371_j7765300871785_1_alg».proof.Defs
import proofs.«102371_j7765300871785_1_alg».proof.Proof.Gen.Kernel
import proofs.«102371_j7765300871785_1_alg».proof.Proof.Gen.Kernel.Skeleton
import proofs.«102371_j7765300871785_1_alg».proof.Proof.Gen.Kernel.Launch
import proofs.«102371_j7765300871785_1_alg».proof.Proof.Gen.Kernel.Points
import proofs.«102371_j7765300871785_1_alg».proof.Proof.Gen.Kernel.Frame
import proofs.«102371_j7765300871785_1_alg».proof.Proof.Gen.KernelIdeal
import proofs.«102371_j7765300871785_1_alg».proof.Proof.Gen.KernelIdeal.Skeleton
import proofs.«102371_j7765300871785_1_alg».proof.Proof.Gen.KernelIdeal.Launch
import proofs.«102371_j7765300871785_1_alg».proof.Proof.Gen.KernelIdeal.Points
import proofs.«102371_j7765300871785_1_alg».proof.Proof.Gen.KernelIdeal.Frame
import proofs.«102371_j7765300871785_1_alg».proof.Proof.Gen.ReferenceIdeal
import proofs.«102371_j7765300871785_1_alg».proof.Proof.Gen.Pre_finite_inputs
import proofs.«102371_j7765300871785_1_alg».proof.Proof.Gen.ReferenceIdeal.Run
import proofs.«102371_j7765300871785_1_alg».proof.Proof.KernelRun
import proofs.«102371_j7765300871785_1_alg».proof.Proof.Chain
import proofs.«102371_j7765300871785_1_alg».proof.Proof.RefSide
import Idealize.ShloMosaic.Adequacy
import Idealize.ShloMosaic.Init

set_option maxRecDepth 16384

noncomputable section

namespace Cert.Proof

open Idealize.ShloMosaic Idealize.SL.Sem

/-- Memories that agree on the arguments give the two programs the same argument arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    Cert.RefSide.args m' c = Cert.KernelIdeal.Chain.args m c := by
  obtain ⟨e0, e1, e2, e3, e4, e5, e6, e7, e8, e9, e10, e11, e12, e13, e14, e15, e16, e17, e18, e19, e20, e21, e22, e23⟩ := h
  unfold Cert.RefSide.args Cert.KernelIdeal.Chain.args
  rw [e0, e1, e2, e3, e4, e5, e6, e7, e8, e9, e10, e11, e12, e13, e14, e15, e16, e17, e18, e19, e20, e21, e22, e23]

/-- Both programs end with the specification's three results of the (common) argument arrays. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => Cert.Spec.P Cert.Spec.specL (Cert.KernelIdeal.Chain.args m c),
    fun c => Cert.Spec.Z1 Cert.Spec.specL (Cert.KernelIdeal.Chain.args m c),
    fun c => Cert.Spec.Z2 Cert.Spec.specL (Cert.KernelIdeal.Chain.args m c), ?_, ?_⟩
  · refine (θ_run Cert.KernelIdeal.defs _ _).mono (fun r h c => ?_) (Cert.KernelIdeal.Bridge.run_end (F := Ideal) m ρ)
    exact ⟨(h c Cert.KernelIdeal.main_v102 (by decide)).trans (Cert.KernelIdeal.Chain.r0 m ρ c),
      (h c Cert.KernelIdeal.main_v98 (by decide)).trans (Cert.KernelIdeal.Chain.r1 m ρ c),
      (h c Cert.KernelIdeal.main_v101_0 (by decide)).trans (Cert.KernelIdeal.Chain.r2 m ρ c),
      (h c Cert.KernelIdeal.main_arg0 (by decide)).trans (Cert.KernelIdeal.Gen.W11_main_arg0 m ρ c),
      (h c Cert.KernelIdeal.main_arg1 (by decide)).trans (Cert.KernelIdeal.Gen.W11_main_arg1 m ρ c),
      (h c Cert.KernelIdeal.main_arg2 (by decide)).trans (Cert.KernelIdeal.Gen.W11_main_arg2 m ρ c),
      (h c Cert.KernelIdeal.main_arg3 (by decide)).trans (Cert.KernelIdeal.Gen.W11_main_arg3 m ρ c),
      (h c Cert.KernelIdeal.main_arg4 (by decide)).trans (Cert.KernelIdeal.Gen.W11_main_arg4 m ρ c),
      (h c Cert.KernelIdeal.main_arg5 (by decide)).trans (Cert.KernelIdeal.Gen.W11_main_arg5 m ρ c),
      (h c Cert.KernelIdeal.main_arg6 (by decide)).trans (Cert.KernelIdeal.Gen.W11_main_arg6 m ρ c),
      (h c Cert.KernelIdeal.main_arg7 (by decide)).trans (Cert.KernelIdeal.Gen.W11_main_arg7 m ρ c),
      (h c Cert.KernelIdeal.main_arg8 (by decide)).trans (Cert.KernelIdeal.Gen.W11_main_arg8 m ρ c),
      (h c Cert.KernelIdeal.main_arg9 (by decide)).trans (Cert.KernelIdeal.Gen.W11_main_arg9 m ρ c),
      (h c Cert.KernelIdeal.main_arg10 (by decide)).trans (Cert.KernelIdeal.Gen.W11_main_arg10 m ρ c),
      (h c Cert.KernelIdeal.main_arg11 (by decide)).trans (Cert.KernelIdeal.Gen.W11_main_arg11 m ρ c),
      (h c Cert.KernelIdeal.main_arg12 (by decide)).trans (Cert.KernelIdeal.Gen.W11_main_arg12 m ρ c),
      (h c Cert.KernelIdeal.main_arg13 (by decide)).trans (Cert.KernelIdeal.Gen.W11_main_arg13 m ρ c),
      (h c Cert.KernelIdeal.main_arg14 (by decide)).trans (Cert.KernelIdeal.Gen.W11_main_arg14 m ρ c),
      (h c Cert.KernelIdeal.main_arg15 (by decide)).trans (Cert.KernelIdeal.Gen.W11_main_arg15 m ρ c),
      (h c Cert.KernelIdeal.main_arg16 (by decide)).trans (Cert.KernelIdeal.Gen.W11_main_arg16 m ρ c),
      (h c Cert.KernelIdeal.main_arg17 (by decide)).trans (Cert.KernelIdeal.Gen.W11_main_arg17 m ρ c),
      (h c Cert.KernelIdeal.main_arg18 (by decide)).trans (Cert.KernelIdeal.Gen.W11_main_arg18 m ρ c),
      (h c Cert.KernelIdeal.main_arg19 (by decide)).trans (Cert.KernelIdeal.Gen.W11_main_arg19 m ρ c),
      (h c Cert.KernelIdeal.main_arg20 (by decide)).trans (Cert.KernelIdeal.Gen.W11_main_arg20 m ρ c),
      (h c Cert.KernelIdeal.main_arg21 (by decide)).trans (Cert.KernelIdeal.Gen.W11_main_arg21 m ρ c),
      (h c Cert.KernelIdeal.main_arg22 (by decide)).trans (Cert.KernelIdeal.Gen.W11_main_arg22 m ρ c),
      (h c Cert.KernelIdeal.main_arg23 (by decide)).trans (Cert.KernelIdeal.Gen.W11_main_arg23 m ρ c)⟩
  · refine (θ_run Cert.ReferenceIdeal.defs _ _).mono (fun r h c => ?_) (Cert.ReferenceIdeal.Value.run (F := Ideal) m' ρ')
    have hA := args_eq m m' c (hagree c)
    obtain ⟨h0, h1, h2, hrest⟩ := h c
    refine ⟨?_, ?_, ?_, hrest⟩
    · rw [h0, Cert.RefSide.res0, Cert.RefSide.refL_eq, hA]
    · rw [h1, Cert.RefSide.res1, Cert.RefSide.refL_eq, hA]
    · rw [h2, Cert.RefSide.res2, Cert.RefSide.refL_eq, hA]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2) (Cert.ReferenceIdeal.Value.run (F := Ideal) m ρ),
  trivial,
  algebraic⟩

end Cert.Proof

end
